-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x32x56x56x512 : Shape := ⟨5, ![3, 32, 56, 56, 512]⟩
abbrev S64x49x49 : Shape := ⟨3, ![64, 49, 49]⟩
abbrev S169x16 : Shape := ⟨2, ![169, 16]⟩
abbrev S_ : Shape := ⟨0, ![]⟩

class Facts : Prop where
  bcast_S_S3x32x56x56x512 : S_.BroadcastsInDim S3x32x56x56x512 (![] : Fin 0 → Fin S3x32x56x56x512.rank)
  reducesTo_S3x32x56x56x512_S_d0_1_2_3_4 : S3x32x56x56x512.ReducesTo [0, 1, 2, 3, 4] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S169x16 : S_.BroadcastsInDim S169x16 (![] : Fin 0 → Fin S169x16.rank)
  reducesTo_S169x16_S_d0_1 : S169x16.ReducesTo [0, 1] S_

variable [Facts]

def fn {F : FTy → Type} [FloatOps F] (main_arg0 : FVec F S3x32x56x56x512 .f32) (main_arg1 : FVec F S64x49x49 .f32) (main_arg2 : FVec F S169x16 .f32) : IVec S_ 1 :=
  let main_v0 : FVec F S3x32x56x56x512 .f32 := Host.absf main_arg0
  let main_cst : FVec F S_ .f32 := constant S_ .f32 0x7F800000#32
  let main_v1 : FVec F S3x32x56x56x512 .f32 := broadcastInDim S3x32x56x56x512 ![] bcast_S_S3x32x56x56x512 main_cst
  let main_v2 : IVec S3x32x56x56x512 1 := cmpf .olt main_v0 main_v1
  let main_c : IVec S_ 1 := constantI S_ 1 1#1
  let main_v3 : IVec S_ 1 := (fun x v => Host.reduce IntOp.andi x v reducesTo_S3x32x56x56x512_S_d0_1_2_3_4 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S169x16 .f32 := Host.absf main_arg2
  let main_cst_2 : FVec F S_ .f32 := constant S_ .f32 0x7F800000#32
  let main_v10 : FVec F S169x16 .f32 := broadcastInDim S169x16 ![] bcast_S_S169x16 main_cst_2
  let main_v11 : IVec S169x16 1 := cmpf .olt main_v9 main_v10
  let main_c_3 : IVec S_ 1 := constantI S_ 1 1#1
  let main_v12 : IVec S_ 1 := (fun x v => Host.reduce IntOp.andi x v reducesTo_S169x16_S_d0_1 h_S_) main_v11 main_c_3
  let main_v13 : IVec S_ 1 := andi main_v8 main_v12
  main_v13
-- ==== Kernel.lean ====
abbrev S3x32x56x56x512 : Shape := ⟨5, ![3, 32, 56, 56, 512]⟩
abbrev S64x49x49 : Shape := ⟨3, ![64, 49, 49]⟩
abbrev S169x16 : Shape := ⟨2, ![169, 16]⟩
abbrev S49x49 : Shape := ⟨2, ![49, 49]⟩
abbrev S1x32x56x56x512 : Shape := ⟨5, ![1, 32, 56, 56, 512]⟩
abbrev S32x56x56x512 : Shape := ⟨4, ![32, 56, 56, 512]⟩
abbrev S32x8x7x8x7x512 : Shape := ⟨6, ![32, 8, 7, 8, 7, 512]⟩
abbrev S32x8x8x7x7x512 : Shape := ⟨6, ![32, 8, 8, 7, 7, 512]⟩
abbrev S32x64x49x512 : Shape := ⟨4, ![32, 64, 49, 512]⟩
abbrev S32x64x49x16x32 : Shape := ⟨5, ![32, 64, 49, 16, 32]⟩
abbrev S32x64x16x49x32 : Shape := ⟨5, ![32, 64, 16, 49, 32]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S1x16x16x49x32 : Shape := ⟨5, ![1, 16, 16, 49, 32]⟩
abbrev S1x16x49x512 : Shape := ⟨4, ![1, 16, 49, 512]⟩
abbrev S16x16x49x32 : Shape := ⟨4, ![16, 16, 49, 32]⟩
abbrev S256x49x32 : Shape := ⟨3, ![256, 49, 32]⟩
abbrev S256x49x49 : Shape := ⟨3, ![256, 49, 49]⟩
abbrev S16x16x49x49 : Shape := ⟨4, ![16, 16, 49, 49]⟩
abbrev S1x16x49x49 : Shape := ⟨4, ![1, 16, 49, 49]⟩
abbrev S16x1x49x49 : Shape := ⟨4, ![16, 1, 49, 49]⟩
abbrev S16x16x49 : Shape := ⟨3, ![16, 16, 49]⟩
abbrev S16x16x49x1 : Shape := ⟨4, ![16, 16, 49, 1]⟩
abbrev S16x49x16x32 : Shape := ⟨4, ![16, 49, 16, 32]⟩
abbrev S16x49x512 : Shape := ⟨3, ![16, 49, 512]⟩
abbrev S2048x49x512 : Shape := ⟨3, ![2048, 49, 512]⟩

abbrev nBuf : Space → Nat
  | .hbm => 38
  | .vmem => 11
  | .smem => 0
  | _ => 0

abbrev bufTy : (tb : Table) → Fin (tcTables nBuf tb) → BufTy
  | .hbm, ⟨0, _⟩ => ⟨S3x32x56x56x512, .f32⟩
  | .hbm, ⟨1, _⟩ => ⟨S64x49x49, .f32⟩
  | .hbm, ⟨2, _⟩ => ⟨S169x16, .f32⟩
  | .hbm, ⟨3, _⟩ => ⟨S49x49, .i32⟩
  | .hbm, ⟨4, _⟩ => ⟨S49x49, .i1⟩
  | .hbm, ⟨5, _⟩ => ⟨S1x32x56x56x512, .f32⟩
  | .hbm, ⟨6, _⟩ => ⟨S32x56x56x512, .f32⟩
  | .hbm, ⟨7, _⟩ => ⟨S32x56x56x512, .bf16⟩
  | .hbm, ⟨8, _⟩ => ⟨S1x32x56x56x512, .f32⟩
  | .hbm, ⟨9, _⟩ => ⟨S32x56x56x512, .f32⟩
  | .hbm, ⟨10, _⟩ => ⟨S32x56x56x512, .bf16⟩
  | .hbm, ⟨11, _⟩ => ⟨S1x32x56x56x512, .f32⟩
  | .hbm, ⟨12, _⟩ => ⟨S32x56x56x512, .f32⟩
  | .hbm, ⟨13, _⟩ => ⟨S32x56x56x512, .bf16⟩
  | .hbm, ⟨14, _⟩ => ⟨S32x8x7x8x7x512, .bf16⟩
  | .hbm, ⟨15, _⟩ => ⟨S32x8x8x7x7x512, .bf16⟩
  | .hbm, ⟨16, _⟩ => ⟨S32x64x49x512, .bf16⟩
  | .hbm, ⟨17, _⟩ => ⟨S32x64x49x16x32, .bf16⟩
  | .hbm, ⟨18, _⟩ => ⟨S32x64x16x49x32, .bf16⟩
  | .hbm, ⟨19, _⟩ => ⟨S32x8x7x8x7x512, .bf16⟩
  | .hbm, ⟨20, _⟩ => ⟨S32x8x8x7x7x512, .bf16⟩
  | .hbm, ⟨21, _⟩ => ⟨S32x64x49x512, .bf16⟩
  | .hbm, ⟨22, _⟩ => ⟨S32x64x49x16x32, .bf16⟩
  | .hbm, ⟨23, _⟩ => ⟨S32x64x16x49x32, .bf16⟩
  | .hbm, ⟨24, _⟩ => ⟨S32x8x7x8x7x512, .bf16⟩
  | .hbm, ⟨25, _⟩ => ⟨S32x8x8x7x7x512, .bf16⟩
  | .hbm, ⟨26, _⟩ => ⟨S32x64x49x512, .bf16⟩
  | .hbm, ⟨27, _⟩ => ⟨S32x64x49x16x32, .bf16⟩
  | .hbm, ⟨28, _⟩ => ⟨S32x64x16x49x32, .bf16⟩
  | .hbm, ⟨29, _⟩ => ⟨S_, .i32⟩
  | .hbm, ⟨30, _⟩ => ⟨S49x49, .i32⟩
  | .hbm, ⟨31, _⟩ => ⟨S49x49, .i32⟩
  | .hbm, ⟨32, _⟩ => ⟨S49x49, .i32⟩
  | .hbm, ⟨33, _⟩ => ⟨S49x49x1, .i32⟩
  | .hbm, ⟨34, _⟩ => ⟨S49x49x16, .f32⟩
  | .hbm, ⟨35, _⟩ => ⟨S16x49x49, .f32⟩
  | .hbm, ⟨36, _⟩ => ⟨S32x64x49x512, .f32⟩
  | .hbm, ⟨37, _⟩ => ⟨S2048x49x512, .f32⟩
  | .local _ .vmem, ⟨0, _⟩ => ⟨S1x16x16x49x32, .bf16⟩
  | .local _ .vmem, ⟨1, _⟩ => ⟨S1x16x16x49x32, .bf16⟩
  | .local _ .vmem, ⟨2, _⟩ => ⟨S1x16x16x49x32, .bf16⟩
  | .local _ .vmem, ⟨3, _⟩ => ⟨S1x16x16x49x32, .bf16⟩
  | .local _ .vmem, ⟨4, _⟩ => ⟨S1x16x16x49x32, .bf16⟩
  | .local _ .vmem, ⟨5, _⟩ => ⟨S1x16x16x49x32, .bf16⟩
  | .local _ .vmem, ⟨6, _⟩ => ⟨S16x49x49, .f32⟩
  | .local _ .vmem, ⟨7, _⟩ => ⟨S16x49x49, .f32⟩
  | .local _ .vmem, ⟨8, _⟩ => ⟨S16x49x49, .f32⟩
  | .local _ .vmem, ⟨9, _⟩ => ⟨S1x16x49x512, .f32⟩
  | .local _ .vmem, ⟨10, _⟩ => ⟨S1x16x49x512, .f32⟩
  | _, _ => ⟨S3x32x56x56x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x16x49x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16x49x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x16x49x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x49x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x49x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x49x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S3x32x56x56x512_S1x32x56x56x512_0_0_0_0_0 : S3x32x56x56x512.Slices ![0, 0, 0, 0, 0] S1x32x56x56x512
  shapeCasts_S1x32x56x56x512_S32x56x56x512 : S1x32x56x56x512.ShapeCasts S32x56x56x512
  bitsLt_bf16_f32 : FTy.bits .bf16 < FTy.bits .f32
  slices_S3x32x56x56x512_S1x32x56x56x512_1_0_0_0_0 : S3x32x56x56x512.Slices ![1, 0, 0, 0, 0] S1x32x56x56x512
  slices_S3x32x56x56x512_S1x32x56x56x512_2_0_0_0_0 : S3x32x56x56x512.Slices ![2, 0, 0, 0, 0] S1x32x56x56x512
  shapeCasts_S32x56x56x512_S32x8x7x8x7x512 : S32x56x56x512.ShapeCasts S32x8x7x8x7x512
  transposes_S32x8x7x8x7x512_S32x8x8x7x7x512_0_1_3_2_4_5 : S32x8x7x8x7x512.Transposes [0, 1, 3, 2, 4, 5] S32x8x8x7x7x512
  shapeCasts_S32x8x8x7x7x512_S32x64x49x512 : S32x8x8x7x7x512.ShapeCasts S32x64x49x512
  shapeCasts_S32x64x49x512_S32x64x49x16x32 : S32x64x49x512.ShapeCasts S32x64x49x16x32
  transposes_S32x64x49x16x32_S32x64x16x49x32_0_1_3_2_4 : S32x64x49x16x32.Transposes [0, 1, 3, 2, 4] S32x64x16x49x32
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  inb_S1x16x16x49x32_S1x16x16x49x32_0_0_0_0_0 : ∀ a, (![0, 0, 0, 0, 0] : Fin 5 → Nat) a + S1x16x16x49x32.size a ≤ S1x16x16x49x32.size a
  h_S1x16x16x49x32 : 0 < S1x16x16x49x32.numel
  shapeCasts_S1x16x16x49x32_S16x16x49x32 : S1x16x16x49x32.ShapeCasts S16x16x49x32
  shapeCasts_S16x16x49x32_S256x49x32 : S16x16x49x32.ShapeCasts S256x49x32
  shapeCasts_S256x49x49_S16x16x49x49 : S256x49x49.ShapeCasts S16x16x49x49
  inb_S16x49x49_S16x49x49_0_0_0 : ∀ a, (![0, 0, 0] : Fin 3 → Nat) a + S16x49x49.size a ≤ S16x49x49.size a
  h_S16x49x49 : 0 < S16x49x49.numel
  shapeCasts_S16x49x49_S16x49x49 : S16x49x49.ShapeCasts S16x49x49
  shapeCasts_S16x49x49_S1x16x49x49 : S16x49x49.ShapeCasts S1x16x49x49
  broadcasts_S1x16x49x49_S16x16x49x49 : S1x16x49x49.Broadcasts S16x16x49x49
  shapeCasts_S16x49x49_S16x1x49x49 : S16x49x49.ShapeCasts S16x1x49x49
  broadcasts_S16x1x49x49_S16x16x49x49 : S16x1x49x49.Broadcasts S16x16x49x49
  reduces_S16x16x49x49_S16x16x49 : S16x16x49x49.Reduces [3] S16x16x49
  shapeCasts_S16x16x49_S16x16x49x1 : S16x16x49.ShapeCasts S16x16x49x1
  broadcasts_S16x16x49x1_S16x16x49x49 : S16x16x49x1.Broadcasts S16x16x49x49
  shapeCasts_S16x16x49x49_S256x49x49 : S16x16x49x49.ShapeCasts S256x49x49
  shapeCasts_S256x49x32_S16x16x49x32 : S256x49x32.ShapeCasts S16x16x49x32
  transposes_S16x16x49x32_p0_2_1_3_S16x49x16x32 : S16x16x49x32.Transposes [0, 2, 1, 3] S16x49x16x32
  shapeCasts_S16x49x16x32_S16x49x512 : S16x49x16x32.ShapeCasts S16x49x512
  inb_S1x16x49x512_S1x16x49x512_0_0_0_0 : ∀ a, (![0, 0, 0, 0] : Fin 4 → Nat) a + S1x16x49x512.size a ≤ S1x16x49x512.size a
  h_S1x16x49x512 : 0 < S1x16x49x512.numel
  shapeCasts_S1x16x49x512_S16x49x512 : S1x16x49x512.ShapeCasts S16x49x512
  shapeCasts_S16x49x512_S1x16x49x512 : S16x49x512.ShapeCasts S1x16x49x512
  shapeCasts_S32x64x49x512_S2048x49x512 : S32x64x49x512.ShapeCasts S2048x49x512
  gather_S169x16_S49x49x1_S49x49x16_2_0_n_n_0_2_116_wf : GatherDims.WF S169x16 S49x49x1 S49x49x16 [2] [0] [] [0] [] 2 ![1, 16]
  dot_S256x49x32_S256x49x32_S256x49x49_2_2_1_1_0_0_wf : DotDims.WF S256x49x32 S256x49x32 S256x49x49 [2] [2] [1] [1] [0] [0]
  dot_S256x49x49_S256x49x32_S256x49x32_2_1_1_2_0_0_wf : DotDims.WF S256x49x49 S256x49x32 S256x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16x49x32.size a ≤ S32x64x16x49x32.size a
  hwx0_0 : ∀ i : grid0.Coords, EltTy.bits .bf16 = 32 ∨ (Rect.block (s := S32x64x16x49x32) S1x16x16x49x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16x49x32.size a ≤ S32x64x16x49x32.size a
  hwx0_1 : ∀ i : grid0.Coords, EltTy.bits .bf16 = 32 ∨ (Rect.block (s := S32x64x16x49x32) S1x16x16x49x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16x49x32.size a ≤ S32x64x16x49x32.size a
  hwx0_2 : ∀ i : grid0.Coords, EltTy.bits .bf16 = 32 ∨ (Rect.block (s := S32x64x16x49x32) S1x16x16x49x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x49x49.size a ≤ S64x49x49.size a
  hwx0_3 : ∀ i : grid0.Coords, EltTy.bits .f32 = 32 ∨ (Rect.block (s := S64x49x49) S16x49x49.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x49x49.size a ≤ S16x49x49.size a
  hwx0_4 : ∀ i : grid0.Coords, EltTy.bits .f32 = 32 ∨ (Rect.block (s := S16x49x49) S16x49x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x49x512.size a ≤ S32x64x49x512.size a
  hwx0_5 : ∀ i : grid0.Coords, EltTy.bits .f32 = 32 ∨ (Rect.block (s := S32x64x49x512) S1x16x49x512.size (cc0_transform_5 i) (hinb0_5 i)).WholeWords (EltTy.packing .f32)

variable [Facts₀]

def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S256x49x32_S256x49x32_S256x49x49_2_2_1_1_0_0 : DotDims S256x49x32 S256x49x32 S256x49x49 where
  lhsContracting := [2]
  rhsContracting := [2]
  lhsNonContracting := [1]
  rhsNonContracting := [1]
  lhsBatch := [0]
  rhsBatch := [0]
  wf := dot_S256x49x32_S256x49x32_S256x49x49_2_2_1_1_0_0_wf
def dot_S256x49x49_S256x49x32_S256x49x32_2_1_1_2_0_0 : DotDims S256x49x49 S256x49x32 S256x49x32 where
  lhsContracting := [2]
  rhsContracting := [1]
  lhsNonContracting := [1]
  rhsNonContracting := [2]
  lhsBatch := [0]
  rhsBatch := [0]
  wf := dot_S256x49x49_S256x49x32_S256x49x32_2_1_1_2_0_0_wf

abbrev win0_0 : Pipeline.Window sig grid0 :=
  Pipeline.Window.ofSpec (Memref.whole main_v13) S1x16x16x49x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x16x16x49x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x16x16x49x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x49x49.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S16x49x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x16x49x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3x32x56x56x512 : Shape := ⟨5, ![3, 32, 56, 56, 512]⟩
abbrev S64x49x49 : Shape := ⟨3, ![64, 49, 49]⟩
abbrev S169x16 : Shape := ⟨2, ![169, 16]⟩
abbrev S49x49 : Shape := ⟨2, ![49, 49]⟩
abbrev S1x32x56x56x512 : Shape := ⟨5, ![1, 32, 56, 56, 512]⟩
abbrev S32x56x56x512 : Shape := ⟨4, ![32, 56, 56, 512]⟩
abbrev S32x8x7x8x7x512 : Shape := ⟨6, ![32, 8, 7, 8, 7, 512]⟩
abbrev S32x8x8x7x7x512 : Shape := ⟨6, ![32, 8, 8, 7, 7, 512]⟩
abbrev S2048x49x512 : Shape := ⟨3, ![2048, 49, 512]⟩
abbrev S2048x49x16x32 : Shape := ⟨4, ![2048, 49, 16, 32]⟩
abbrev S2048x16x49x32 : Shape := ⟨4, ![2048, 16, 49, 32]⟩
abbrev S2048x16x49x49 : Shape := ⟨4, ![2048, 16, 49, 49]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S1x16x49x49 : Shape := ⟨4, ![1, 16, 49, 49]⟩
abbrev S32x64x16x49x49 : Shape := ⟨5, ![32, 64, 16, 49, 49]⟩
abbrev S1x64x1x49x49 : Shape := ⟨5, ![1, 64, 1, 49, 49]⟩
abbrev S2048x16x49 : Shape := ⟨3, ![2048, 16, 49]⟩
abbrev S2048x16x49x1 : Shape := ⟨4, ![2048, 16, 49, 1]⟩

abbrev nBuf : Space → Nat
  | .hbm => 64
  | .vmem => 0
  | .smem => 0
  | _ => 0

abbrev bufTy : (tb : Table) → Fin (tcTables nBuf tb) → BufTy
  | .hbm, ⟨0, _⟩ => ⟨S3x32x56x56x512, .f32⟩
  | .hbm, ⟨1, _⟩ => ⟨S64x49x49, .f32⟩
  | .hbm, ⟨2, _⟩ => ⟨S169x16, .f32⟩
  | .hbm, ⟨3, _⟩ => ⟨S49x49, .i32⟩
  | .hbm, ⟨4, _⟩ => ⟨S1x32x56x56x512, .f32⟩
  | .hbm, ⟨5, _⟩ => ⟨S32x56x56x512, .f32⟩
  | .hbm, ⟨6, _⟩ => ⟨S1x32x56x56x512, .f32⟩
  | .hbm, ⟨7, _⟩ => ⟨S32x56x56x512, .f32⟩
  | .hbm, ⟨8, _⟩ => ⟨S1x32x56x56x512, .f32⟩
  | .hbm, ⟨9, _⟩ => ⟨S32x56x56x512, .f32⟩
  | .hbm, ⟨10, _⟩ => ⟨S32x8x7x8x7x512, .f32⟩
  | .hbm, ⟨11, _⟩ => ⟨S32x8x8x7x7x512, .f32⟩
  | .hbm, ⟨12, _⟩ => ⟨S2048x49x512, .f32⟩
  | .hbm, ⟨13, _⟩ => ⟨S2048x49x16x32, .f32⟩
  | .hbm, ⟨14, _⟩ => ⟨S2048x16x49x32, .f32⟩
  | .hbm, ⟨15, _⟩ => ⟨S32x8x7x8x7x512, .f32⟩
  | .hbm, ⟨16, _⟩ => ⟨S32x8x8x7x7x512, .f32⟩
  | .hbm, ⟨17, _⟩ => ⟨S2048x49x512, .f32⟩
  | .hbm, ⟨18, _⟩ => ⟨S2048x49x16x32, .f32⟩
  | .hbm, ⟨19, _⟩ => ⟨S2048x16x49x32, .f32⟩
  | .hbm, ⟨20, _⟩ => ⟨S32x8x7x8x7x512, .f32⟩
  | .hbm, ⟨21, _⟩ => ⟨S32x8x8x7x7x512, .f32⟩
  | .hbm, ⟨22, _⟩ => ⟨S2048x49x512, .f32⟩
  | .hbm, ⟨23, _⟩ => ⟨S2048x49x16x32, .f32⟩
  | .hbm, ⟨24, _⟩ => ⟨S2048x16x49x32, .f32⟩
  | .hbm, ⟨25, _⟩ => ⟨S2048x16x49x49, .f32⟩
  | .hbm, ⟨26, _⟩ => ⟨S_, .f32⟩
  | .hbm, ⟨27, _⟩ => ⟨S2048x16x49x49, .f32⟩
  | .hbm, ⟨28, _⟩ => ⟨S2048x16x49x49, .f32⟩
  | .hbm, ⟨29, _⟩ => ⟨S_, .i32⟩
  | .hbm, ⟨30, _⟩ => ⟨S49x49, .i32⟩
  | .hbm, ⟨31, _⟩ => ⟨S49x49, .i1⟩
  | .hbm, ⟨32, _⟩ => ⟨S_, .i32⟩
  | .hbm, ⟨33, _⟩ => ⟨S49x49, .i32⟩
  | .hbm, ⟨34, _⟩ => ⟨S49x49, .i32⟩
  | .hbm, ⟨35, _⟩ => ⟨S49x49, .i32⟩
  | .hbm, ⟨36, _⟩ => ⟨S49x49x1, .i32⟩
  | .hbm, ⟨37, _⟩ => ⟨S49x49x16, .f32⟩
  | .hbm, ⟨38, _⟩ => ⟨S16x49x49, .f32⟩
  | .hbm, ⟨39, _⟩ => ⟨S1x16x49x49, .f32⟩
  | .hbm, ⟨40, _⟩ => ⟨S2048x16x49x49, .f32⟩
  | .hbm, ⟨41, _⟩ => ⟨S2048x16x49x49, .f32⟩
  | .hbm, ⟨42, _⟩ => ⟨S32x64x16x49x49, .f32⟩
  | .hbm, ⟨43, _⟩ => ⟨S1x64x1x49x49, .f32⟩
  | .hbm, ⟨44, _⟩ => ⟨S32x64x16x49x49, .f32⟩
  | .hbm, ⟨45, _⟩ => ⟨S32x64x16x49x49, .f32⟩
  | .hbm, ⟨46, _⟩ => ⟨S2048x16x49x49, .f32⟩
  | .hbm, ⟨47, _⟩ => ⟨S_, .f32⟩
  | .hbm, ⟨48, _⟩ => ⟨S2048x16x49, .f32⟩
  | .hbm, ⟨49, _⟩ => ⟨S_, .f32⟩
  | .hbm, ⟨50, _⟩ => ⟨S2048x16x49, .f32⟩
  | .hbm, ⟨51, _⟩ => ⟨S2048x16x49, .f32⟩
  | .hbm, ⟨52, _⟩ => ⟨S2048x16x49x1, .f32⟩
  | .hbm, ⟨53, _⟩ => ⟨S2048x16x49x49, .f32⟩
  | .hbm, ⟨54, _⟩ => ⟨S2048x16x49x49, .f32⟩
  | .hbm, ⟨55, _⟩ => ⟨S2048x16x49x49, .f32⟩
  | .hbm, ⟨56, _⟩ => ⟨S_, .f32⟩
  | .hbm, ⟨57, _⟩ => ⟨S2048x16x49, .f32⟩
  | .hbm, ⟨58, _⟩ => ⟨S2048x16x49x1, .f32⟩
  | .hbm, ⟨59, _⟩ => ⟨S2048x16x49x49, .f32⟩
  | .hbm, ⟨60, _⟩ => ⟨S2048x16x49x49, .f32⟩
  | .hbm, ⟨61, _⟩ => ⟨S2048x16x49x32, .f32⟩
  | .hbm, ⟨62, _⟩ => ⟨S2048x49x16x32, .f32⟩
  | .hbm, ⟨63, _⟩ => ⟨S2048x49x512, .f32⟩
  | _, _ => ⟨S3x32x56x56x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]

class Facts₀ : Prop where
  slices_S3x32x56x56x512_S1x32x56x56x512_0_0_0_0_0 : S3x32x56x56x512.Slices ![0, 0, 0, 0, 0] S1x32x56x56x512
  shapeCasts_S1x32x56x56x512_S32x56x56x512 : S1x32x56x56x512.ShapeCasts S32x56x56x512
  slices_S3x32x56x56x512_S1x32x56x56x512_1_0_0_0_0 : S3x32x56x56x512.Slices ![1, 0, 0, 0, 0] S1x32x56x56x512
  slices_S3x32x56x56x512_S1x32x56x56x512_2_0_0_0_0 : S3x32x56x56x512.Slices ![2, 0, 0, 0, 0] S1x32x56x56x512
  shapeCasts_S32x56x56x512_S32x8x7x8x7x512 : S32x56x56x512.ShapeCasts S32x8x7x8x7x512
  transposes_S32x8x7x8x7x512_S32x8x8x7x7x512_0_1_3_2_4_5 : S32x8x7x8x7x512.Transposes [0, 1, 3, 2, 4, 5] S32x8x8x7x7x512
  shapeCasts_S32x8x8x7x7x512_S2048x49x512 : S32x8x8x7x7x512.ShapeCasts S2048x49x512
  shapeCasts_S2048x49x512_S2048x49x16x32 : S2048x49x512.ShapeCasts S2048x49x16x32
  transposes_S2048x49x16x32_S2048x16x49x32_0_2_1_3 : S2048x49x16x32.Transposes [0, 2, 1, 3] S2048x16x49x32
  bcast_S_S2048x16x49x49 : S_.BroadcastsInDim S2048x16x49x49 (![] : Fin 0 → Fin S2048x16x49x49.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  bcast_S16x49x49_S1x16x49x49_1_2_3 : S16x49x49.BroadcastsInDim S1x16x49x49 (![1, 2, 3] : Fin 3 → Fin S1x16x49x49.rank)
  bcast_S1x16x49x49_S2048x16x49x49_0_1_2_3 : S1x16x49x49.BroadcastsInDim S2048x16x49x49 (![0, 1, 2, 3] : Fin 4 → Fin S2048x16x49x49.rank)
  shapeCasts_S2048x16x49x49_S32x64x16x49x49 : S2048x16x49x49.ShapeCasts S32x64x16x49x49
  bcast_S64x49x49_S1x64x1x49x49_1_3_4 : S64x49x49.BroadcastsInDim S1x64x1x49x49 (![1, 3, 4] : Fin 3 → Fin S1x64x1x49x49.rank)
  bcast_S1x64x1x49x49_S32x64x16x49x49_0_1_2_3_4 : S1x64x1x49x49.BroadcastsInDim S32x64x16x49x49 (![0, 1, 2, 3, 4] : Fin 5 → Fin S32x64x16x49x49.rank)
  shapeCasts_S32x64x16x49x49_S2048x16x49x49 : S32x64x16x49x49.ShapeCasts S2048x16x49x49
  reducesTo_S2048x16x49x49_S2048x16x49_d3 : S2048x16x49x49.ReducesTo [3] S2048x16x49
  h_S_ : 0 < S_.numel
  bcast_S_S2048x16x49 : S_.BroadcastsInDim S2048x16x49 (![] : Fin 0 → Fin S2048x16x49.rank)
  bcast_S2048x16x49_S2048x16x49x1_0_1_2 : S2048x16x49.BroadcastsInDim S2048x16x49x1 (![0, 1, 2] : Fin 3 → Fin S2048x16x49x1.rank)
  bcast_S2048x16x49x1_S2048x16x49x49_0_1_2_3 : S2048x16x49x1.BroadcastsInDim S2048x16x49x49 (![0, 1, 2, 3] : Fin 4 → Fin S2048x16x49x49.rank)
  transposes_S2048x16x49x32_S2048x49x16x32_0_2_1_3 : S2048x16x49x32.Transposes [0, 2, 1, 3] S2048x49x16x32
  shapeCasts_S2048x49x16x32_S2048x49x512 : S2048x49x16x32.ShapeCasts S2048x49x512
  dot_S2048x16x49x32_S2048x16x49x32_S2048x16x49x49_3_3_2_2_01_01_wf : DotDims.WF S2048x16x49x32 S2048x16x49x32 S2048x16x49x49 [3] [3] [2] [2] [0, 1] [0, 1]
  gather_S169x16_S49x49x1_S49x49x16_2_0_n_n_0_2_116_wf : GatherDims.WF S169x16 S49x49x1 S49x49x16 [2] [0] [] [0] [] 2 ![1, 16]
  dot_S2048x16x49x49_S2048x16x49x32_S2048x16x49x32_3_2_2_3_01_01_wf : DotDims.WF S2048x16x49x49 S2048x16x49x32 S2048x16x49x32 [3] [2] [2] [3] [0, 1] [0, 1]

variable [Facts₀]

def dot_S2048x16x49x32_S2048x16x49x32_S2048x16x49x49_3_3_2_2_01_01 : DotDims S2048x16x49x32 S2048x16x49x32 S2048x16x49x49 where
  lhsContracting := [3]
  rhsContracting := [3]
  lhsNonContracting := [2]
  rhsNonContracting := [2]
  lhsBatch := [0, 1]
  rhsBatch := [0, 1]
  wf := dot_S2048x16x49x32_S2048x16x49x32_S2048x16x49x49_3_3_2_2_01_01_wf
def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S2048x16x49x49_S2048x16x49x32_S2048x16x49x32_3_2_2_3_01_01 : DotDims S2048x16x49x49 S2048x16x49x32 S2048x16x49x32 where
  lhsContracting := [3]
  rhsContracting := [2]
  lhsNonContracting := [2]
  rhsNonContracting := [3]
  lhsBatch := [0, 1]
  rhsBatch := [0, 1]
  wf := dot_S2048x16x49x49_S2048x16x49x32_S2048x16x49x32_3_2_2_3_01_01_wf

class Facts : Prop extends Facts₀ where

variable [Facts]
-- ==== Proof.Spec.lean ====
/-
  Windowed multi-head attention, stated once over plain index functions.

  The input X has three slabs (queries, keys, values) of 32 images of 56 x 56 positions with 512 channels.
  Each image is cut into 64 windows of 7 x 7 = 49 positions and each channel vector into 16 heads of 32
  channels.  `prep off X` is slab `off` re-laid as (image, window, position, head, channel).  Inside one
  window and head, position n scores position m by the inner product of its query with m's key, scaled, plus a
  bias (head, n, m) and a mask (window, n, m); the scores of a row are turned into weights by the softmax
  (subtract the row maximum, exponentiate, divide by the row sum) and the output at n is the weighted sum of
  the value vectors.  `out` lays the outputs as (image * 64 + window, position, head * 32 + channel).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.WinAttn

open Idealize.ShloMosaic Idealize.ShloMosaic.ValueIdx

/-! ## Shapes -/

abbrev SX : Shape := ⟨5, ![3, 32, 56, 56, 512]⟩
abbrev SX1 : Shape := ⟨5, ![1, 32, 56, 56, 512]⟩
abbrev S4 : Shape := ⟨4, ![32, 56, 56, 512]⟩
abbrev S6a : Shape := ⟨6, ![32, 8, 7, 8, 7, 512]⟩
abbrev S6b : Shape := ⟨6, ![32, 8, 8, 7, 7, 512]⟩
abbrev S4w : Shape := ⟨4, ![32, 64, 49, 512]⟩
abbrev SY : Shape := ⟨5, ![32, 64, 49, 16, 32]⟩
abbrev S3r : Shape := ⟨3, ![2048, 49, 512]⟩
abbrev S4r : Shape := ⟨4, ![2048, 49, 16, 32]⟩
abbrev SM : Shape := ⟨3, ![64, 49, 49]⟩
abbrev SB : Shape := ⟨3, ![16, 49, 49]⟩
abbrev SO : Shape := ⟨3, ![2048, 49, 512]⟩

/-! ## The window partition -/

/-- Slab `off` of the input cut into windows: (image, window row, window column, row in window, column in window,
    channel). -/
def win6 (off : Fin 5 → Nat) (hs : SX.Slices off SX1) (X : SX.Idx → EReal) : S6b.Idx → EReal :=
  transpose S6b [0, 1, 3, 2, 4, 5] (shapeCast S6a (shapeCast S4 (extractStridedSlice SX1 off X hs)))

/-- The same slab as (image, window, position, head, channel). -/
def prep (off : Fin 5 → Nat) (hs : SX.Slices off SX1) (X : SX.Idx → EReal) : SY.Idx → EReal :=
  shapeCast SY (shapeCast S4w (win6 off hs X))

/-- Two reshapes in a row are one. -/
theorem shapeCast_comp {s t u : Shape} {α : Type} (x : s.Idx → α) (h : s.ShapeCasts t) (h' : t.ShapeCasts u) :
    shapeCast u (shapeCast t x h) h' = shapeCast u x (h'.trans h) :=
  funext fun j => congrArg x (Shape.reshapeEquiv_reshapeEquiv h h' j)

/-- Two reshapes of one array agree at indices with the same row-major position. -/
theorem shapeCast_eq_shapeCast {s t u : Shape} {α : Type} (x : s.Idx → α) (h : s.ShapeCasts t) (h' : s.ShapeCasts u)
    (j : t.Idx) (k : u.Idx) (e : (t.rowMajor j).val = (u.rowMajor k).val) : shapeCast t x h j = shapeCast u x h' k := by
  unfold shapeCast
  refine congrArg x ?_
  exact Shape.reshapeEquiv_eq_of_rowMajor h ((Shape.rowMajor_reshapeEquiv h' k).trans e.symm)

/-- The windows numbered 0 … 2047 over all images, with the channels split into heads, are the (image, window)
    layout at image `bw / 64`, window `bw % 64`. -/
theorem flat_prep (W : S6b.Idx → EReal) (h1 : S6b.ShapeCasts S3r) (h2 : S3r.ShapeCasts S4r)
    (h3 : S6b.ShapeCasts S4w) (h4 : S4w.ShapeCasts SY)
    (bw : Fin 2048) (n : Fin 49) (h : Fin 16) (d : Fin 32) :
    shapeCast S4r (shapeCast S3r W h1) h2 (ix4 bw n h d)
      = shapeCast SY (shapeCast S4w W h3) h4
          (ix5 (⟨bw.val / 64, by have := bw.isLt; omega⟩ : Fin 32) (⟨bw.val % 64, by omega⟩ : Fin 64) n h d) := by
  rw [shapeCast_comp, shapeCast_comp]
  refine shapeCast_eq_shapeCast W _ _ _ _ ?_
  rw [Shape.rowMajor_val_four, Shape.rowMajor_val_five]
  show ((bw.val * 49 + n.val) * 16 + h.val) * 32 + d.val
    = ((((bw.val / 64) * 64 + bw.val % 64) * 49 + n.val) * 16 + h.val) * 32 + d.val
  have : bw.val / 64 * 64 + bw.val % 64 = bw.val := by omega
  rw [this]

/-! ## One row of attention -/

/-- The scale of the scores (the f32 nearest 32^(-1/2); the same word in both programs). -/
def scale : EReal := Ideal.ofBits .f32 0x3E3504F3#32
/-- The value a row maximum starts from (the f32 word of minus infinity). -/
def negInf : EReal := Ideal.ofBits .f32 0xFF800000#32

/-- The maximum of a row of 49 scores. -/
def rowMax (s : Fin 49 → EReal) : EReal := (Finset.univ : Finset (Fin 49)).fold max negInf s
/-- A score less the row's maximum, exponentiated. -/
def expRow (s : Fin 49 → EReal) (m : Fin 49) : EReal := Ideal.exp (s m - rowMax s)
/-- The softmax weight of entry m. -/
def prob (s : Fin 49 → EReal) (m : Fin 49) : EReal := Ideal.div (expRow s m) (∑ m' : Fin 49, expRow s m')

/-- Starting the maximum once more from the same value changes nothing. -/
theorem max_negInf_rowMax (s : Fin 49 → EReal) : max negInf (rowMax s) = rowMax s :=
  max_eq_right ((Finset.le_fold_max _).2 (Or.inl le_rfl))

/-! ## The whole layer -/

/-- The score of position n against position m in image b, window w, head h. -/
def score (Yq Yk : SY.Idx → EReal) (B : SB.Idx → EReal) (M : SM.Idx → EReal)
    (b : Fin 32) (w : Fin 64) (h : Fin 16) (n m : Fin 49) : EReal :=
  (∑ e : Fin 32, Yq (ix5 b w n h e) * Yk (ix5 b w m h e)) * scale + B (ix3 h n m) + M (ix3 w n m)

/-- The attention output at position n, channel d of head h. -/
def att (Yq Yk Yv : SY.Idx → EReal) (B : SB.Idx → EReal) (M : SM.Idx → EReal)
    (b : Fin 32) (w : Fin 64) (h : Fin 16) (n : Fin 49) (d : Fin 32) : EReal :=
  ∑ m : Fin 49, prob (score Yq Yk B M b w h n) m * Yv (ix5 b w m h d)

/-- The output at window number bw (over all images), position n, channel c. -/
def outAt (Yq Yk Yv : SY.Idx → EReal) (B : SB.Idx → EReal) (M : SM.Idx → EReal)
    (bw : Fin 2048) (n : Fin 49) (c : Fin 512) : EReal :=
  att Yq Yk Yv B M (⟨bw.val / 64, by have := bw.isLt; omega⟩ : Fin 32) (⟨bw.val % 64, by omega⟩ : Fin 64)
    (⟨c.val / 32, by have := c.isLt; omega⟩ : Fin 16) n (⟨c.val % 32, by omega⟩ : Fin 32)

/-- The output array. -/
def out (Yq Yk Yv : SY.Idx → EReal) (B : SB.Idx → EReal) (M : SM.Idx → EReal) : SO.Idx → EReal :=
  fun i => outAt Yq Yk Yv B M (i 0) (i 1) (i 2)

end Cert.WinAttn

end
-- ==== Proof.KerPay.lean ====
/-
  The kernel body as arithmetic.  One grid step holds 16 windows (wl) of one image: blocks of the
  prepared queries, keys and values (1, wl, head, position, channel), the 16 windows' masks (wl, n, m) and the
  whole bias (head, n, m).  The body flattens (wl, head) to one batch index g = 16 wl + head, forms the scores
  q.k scaled plus bias plus mask, the softmax weights of each row, the weighted sums of the values, and lays the
  result as (1, wl, position, 32 head + channel).  Here each stage is read at an index.
-/
import proofs.«150819_j67637144977770_2_alg».proof.Proof.Gen.KernelIdeal.Skeleton
import proofs.«150819_j67637144977770_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The scores of the 16 windows of a step, all heads: (wl, head, n, m). -/
def scores (x0 x1 : FVec Ideal S1x16x16x49x32 .bf16) (xb xm : FVec Ideal S16x49x49 .f32) : FVec Ideal S16x16x49x49 .f32 :=
  addf (addf
    (shapeCast S16x16x49x49
      (mulf (matmul dot_S256x49x32_S256x49x32_S256x49x49_2_2_1_1_0_0 none
          (shapeCast S256x49x32 (shapeCast S16x16x49x32 x0 shapeCasts_S1x16x16x49x32_S16x16x49x32) shapeCasts_S16x16x49x32_S256x49x32)
          (shapeCast S256x49x32 (shapeCast S16x16x49x32 x1 shapeCasts_S1x16x16x49x32_S16x16x49x32) shapeCasts_S16x16x49x32_S256x49x32)
          (constant S256x49x49 .f32 0x00000000#32))
        (broadcast S256x49x49 (Scalar.ofBits .f32 0x3E3504F3#32)))
      shapeCasts_S256x49x49_S16x16x49x49)
    (broadcastTo S16x16x49x49 (shapeCast S1x16x49x49 (shapeCast S16x49x49 xb shapeCasts_S16x49x49_S16x49x49) shapeCasts_S16x49x49_S1x16x49x49) broadcasts_S1x16x49x49_S16x16x49x49))
    (broadcastTo S16x16x49x49 (shapeCast S16x1x49x49 xm shapeCasts_S16x49x49_S16x1x49x49) broadcasts_S16x1x49x49_S16x16x49x49)

/-- The row maxima (wl, head, n). -/
def rowMaxes (s : FVec Ideal S16x16x49x49 .f32) : FVec Ideal S16x16x49 .f32 :=
  multiReduction .maximumf [3] S16x16x49 s 0xFF800000#32 reduces_S16x16x49x49_S16x16x49 (.inl rfl) rfl

/-- The exponentials of the scores less their row maximum. -/
def exps (s : FVec Ideal S16x16x49x49 .f32) : FVec Ideal S16x16x49x49 .f32 :=
  exp (subf s (broadcastTo S16x16x49x49 (shapeCast S16x16x49x1 (rowMaxes s) shapeCasts_S16x16x49_S16x16x49x1) broadcasts_S16x16x49x1_S16x16x49x49))

/-- The row sums (wl, head, n). -/
def rowSums (p : FVec Ideal S16x16x49x49 .f32) : FVec Ideal S16x16x49 .f32 :=
  multiReduction .add [3] S16x16x49 p 0x00000000#32 reduces_S16x16x49x49_S16x16x49 (.inl rfl) rfl

/-- The softmax weights. -/
def weights (p : FVec Ideal S16x16x49x49 .f32) : FVec Ideal S16x16x49x49 .f32 :=
  divf p (broadcastTo S16x16x49x49 (shapeCast S16x16x49x1 (rowSums p) shapeCasts_S16x16x49_S16x16x49x1) broadcasts_S16x16x49x1_S16x16x49x49)

/-- The body's weights payload is the weights of the exponentials of the scores, batch-flattened. -/
theorem pay3_eq (x0 x1 : FVec Ideal S1x16x16x49x32 .bf16) (xb xm : FVec Ideal S16x49x49 .f32) :
    k0_pay3 x0 x1 xb xm
      = shapeCast S256x49x49 (truncf .bf16 (weights (exps (scores x0 x1 xb xm))) bitsLt_bf16_f32) shapeCasts_S16x16x49x49_S256x49x49 := rfl

/-- The stored block from the values and the weights: the batched product, laid (1, wl, n, 32 head + channel). -/
def laid (v : FVec Ideal S256x49x32 .bf16) (w : FVec Ideal S256x49x49 .bf16) : FVec Ideal S1x16x49x512 .f32 :=
  shapeCast S1x16x49x512 (shapeCast S16x49x512 (transpose S16x49x16x32 [0, 2, 1, 3]
    (shapeCast S16x16x49x32 (matmul dot_S256x49x49_S256x49x32_S256x49x32_2_1_1_2_0_0 none w v (constant S256x49x32 .f32 0x00000000#32))
      shapeCasts_S256x49x32_S16x16x49x32) transposes_S16x16x49x32_p0_2_1_3_S16x49x16x32) shapeCasts_S16x49x16x32_S16x49x512)
    shapeCasts_S16x49x512_S1x16x49x512

theorem pay1_eq (v : FVec Ideal S256x49x32 .bf16) (w : FVec Ideal S256x49x49 .bf16) : k0_pay1 v w = laid v w := rfl

/-! ## Reading the stages at an index -/

abbrev Dqk := dot_S256x49x32_S256x49x32_S256x49x49_2_2_1_1_0_0
abbrev Dpv := dot_S256x49x49_S256x49x32_S256x49x32_2_1_1_2_0_0

/-- In the product of queries and keys the left factor at (g, n, m), contraction position e, is the query entry (g, n, e). -/
theorem qk_lidx (g : Fin 256) (n m : Fin 49) (e : Fin 32) :
    Dqk.lhsIdx (ix3 g n m) ((contrEquiv1 Dqk 32 rfl rfl).symm e) = ix3 g n e := by
  have c3 := contrEquiv1_symm_val Dqk 32 rfl rfl e
  funext ax; apply Fin.ext
  match ax with
  | ⟨0, _⟩ => simp [DotDims.lhsIdx, Dqk, dot_S256x49x32_S256x49x32_S256x49x49_2_2_1_1_0_0]; rfl
  | ⟨1, _⟩ => simp [DotDims.lhsIdx, Dqk, dot_S256x49x32_S256x49x32_S256x49x49_2_2_1_1_0_0]; rfl
  | ⟨2, _⟩ => simp [DotDims.lhsIdx, Dqk, dot_S256x49x32_S256x49x32_S256x49x49_2_2_1_1_0_0]; exact c3

/-- … and the right factor is the key entry (g, m, e). -/
theorem qk_ridx (g : Fin 256) (n m : Fin 49) (e : Fin 32) :
    Dqk.rhsIdx (ix3 g n m) ((contrEquiv1 Dqk 32 rfl rfl).symm e) = ix3 g m e := by
  have c3 := contrEquiv1_symm_val Dqk 32 rfl rfl e
  funext ax; apply Fin.ext
  match ax with
  | ⟨0, _⟩ => simp [DotDims.rhsIdx, Dqk, dot_S256x49x32_S256x49x32_S256x49x49_2_2_1_1_0_0]; rfl
  | ⟨1, _⟩ => simp [DotDims.rhsIdx, Dqk, dot_S256x49x32_S256x49x32_S256x49x49_2_2_1_1_0_0]; rfl
  | ⟨2, _⟩ => simp [DotDims.rhsIdx, Dqk, dot_S256x49x32_S256x49x32_S256x49x49_2_2_1_1_0_0]; exact c3

/-- In the product of weights and values the left factor at (g, n, d), contraction position m, is the weight (g, n, m). -/
theorem pv_lidx (g : Fin 256) (n : Fin 49) (d : Fin 32) (m : Fin 49) :
    Dpv.lhsIdx (ix3 g n d) ((contrEquiv1 Dpv 49 rfl rfl).symm m) = ix3 g n m := by
  have c3 := contrEquiv1_symm_val Dpv 49 rfl rfl m
  funext ax; apply Fin.ext
  match ax with
  | ⟨0, _⟩ => simp [DotDims.lhsIdx, Dpv, dot_S256x49x49_S256x49x32_S256x49x32_2_1_1_2_0_0]; rfl
  | ⟨1, _⟩ => simp [DotDims.lhsIdx, Dpv, dot_S256x49x49_S256x49x32_S256x49x32_2_1_1_2_0_0]; rfl
  | ⟨2, _⟩ => simp [DotDims.lhsIdx, Dpv, dot_S256x49x49_S256x49x32_S256x49x32_2_1_1_2_0_0]; exact c3

/-- … and the right factor is the value entry (g, m, d). -/
theorem pv_ridx (g : Fin 256) (n : Fin 49) (d : Fin 32) (m : Fin 49) :
    Dpv.rhsIdx (ix3 g n d) ((contrEquiv1 Dpv 49 rfl rfl).symm m) = ix3 g m d := by
  have c3 := contrEquiv1_symm_val Dpv 49 rfl rfl m
  funext ax; apply Fin.ext
  match ax with
  | ⟨0, _⟩ => simp [DotDims.rhsIdx, Dpv, dot_S256x49x49_S256x49x32_S256x49x32_2_1_1_2_0_0]; rfl
  | ⟨1, _⟩ => simp [DotDims.rhsIdx, Dpv, dot_S256x49x49_S256x49x32_S256x49x32_2_1_1_2_0_0]; exact c3
  | ⟨2, _⟩ => simp [DotDims.rhsIdx, Dpv, dot_S256x49x49_S256x49x32_S256x49x32_2_1_1_2_0_0]; rfl

/-- The batch index g = 16 wl + head of a block flattened from (1, wl, head, position, channel). -/
theorem flat3 {α : Type} (x : S1x16x16x49x32.Idx → α) (h1 : S1x16x16x49x32.ShapeCasts S16x16x49x32) (h2 : S16x16x49x32.ShapeCasts S256x49x32)
    (wl h : Fin 16) (n : Fin 49) (e : Fin 32) :
    shapeCast S256x49x32 (shapeCast S16x16x49x32 x h1) h2 (ix3 (⟨wl.val * 16 + h.val, by omega⟩ : Fin 256) n e) = x (ix5 (0 : Fin 1) wl h n e) := by
  rw [Cert.WinAttn.shapeCast_comp]
  refine shapeCast_apply x _ _ _ ?_
  rw [Shape.rowMajor_val_five, Shape.rowMajor_val_three]
  show (((0 * 16 + wl.val) * 16 + h.val) * 49 + n.val) * 32 + e.val = ((wl.val * 16 + h.val) * 49 + n.val) * 32 + e.val
  omega

/-- The bias (head, n, m) spread over the 16 windows. -/
theorem bias_spread (xb : FVec Ideal S16x49x49 .f32) (h0 : S16x49x49.ShapeCasts S16x49x49) (h1 : S16x49x49.ShapeCasts S1x16x49x49)
    (h2 : S1x16x49x49.Broadcasts S16x16x49x49) (wl h : Fin 16) (n m : Fin 49) :
    broadcastTo S16x16x49x49 (shapeCast S1x16x49x49 (shapeCast S16x49x49 xb h0) h1) h2 (ix4 wl h n m) = xb (ix3 h n m) := by
  refine (broadcastTo_apply _ h2 (ix4 wl h n m) (ix4 (0 : Fin 1) h n m) (fun a => ?_)).trans ?_
  · match a with
    | ⟨0, _⟩ => rfl
    | ⟨1, _⟩ => rfl
    | ⟨2, _⟩ => rfl
    | ⟨3, _⟩ => rfl
  · rw [shapeCast_self]
    refine shapeCast_apply xb h1 _ (ix3 h n m) ?_
    rw [Shape.rowMajor_val_three, Shape.rowMajor_val_four]
    show (h.val * 49 + n.val) * 49 + m.val = (((0 : Fin 1).val * 16 + h.val) * 49 + n.val) * 49 + m.val
    simp

/-- The masks (wl, n, m) spread over the 16 heads. -/
theorem mask_spread (xm : FVec Ideal S16x49x49 .f32) (h1 : S16x49x49.ShapeCasts S16x1x49x49)
    (h2 : S16x1x49x49.Broadcasts S16x16x49x49) (wl h : Fin 16) (n m : Fin 49) :
    broadcastTo S16x16x49x49 (shapeCast S16x1x49x49 xm h1) h2 (ix4 wl h n m) = xm (ix3 wl n m) := by
  refine (broadcastTo_apply _ h2 (ix4 wl h n m) (ix4 wl (0 : Fin 1) n m) (fun a => ?_)).trans ?_
  · match a with
    | ⟨0, _⟩ => rfl
    | ⟨1, _⟩ => rfl
    | ⟨2, _⟩ => rfl
    | ⟨3, _⟩ => rfl
  · refine shapeCast_apply xm h1 _ (ix3 wl n m) ?_
    rw [Shape.rowMajor_val_three, Shape.rowMajor_val_four]
    show (wl.val * 49 + n.val) * 49 + m.val = ((wl.val * 1 + (0 : Fin 1).val) * 49 + n.val) * 49 + m.val
    simp

/-- A per-row quantity (wl, head, n) spread along the row. -/
theorem row_spread (r : FVec Ideal S16x16x49 .f32) (h1 : S16x16x49.ShapeCasts S16x16x49x1)
    (h2 : S16x16x49x1.Broadcasts S16x16x49x49) (wl h : Fin 16) (n m : Fin 49) :
    broadcastTo S16x16x49x49 (shapeCast S16x16x49x1 r h1) h2 (ix4 wl h n m) = r (ix3 wl h n) := by
  refine (broadcastTo_apply _ h2 (ix4 wl h n m) (ix4 wl h n (0 : Fin 1)) (fun a => ?_)).trans ?_
  · match a with
    | ⟨0, _⟩ => rfl
    | ⟨1, _⟩ => rfl
    | ⟨2, _⟩ => rfl
    | ⟨3, _⟩ => rfl
  · refine shapeCast_apply r h1 _ (ix3 wl h n) ?_
    rw [Shape.rowMajor_val_three, Shape.rowMajor_val_four]
    show (wl.val * 16 + h.val) * 49 + n.val = ((wl.val * 16 + h.val) * 49 + n.val) * 1 + (0 : Fin 1).val
    simp

/-- The score of n against m in window wl, head h of the step. -/
theorem scores_apply (x0 x1 : FVec Ideal S1x16x16x49x32 .bf16) (xb xm : FVec Ideal S16x49x49 .f32) (wl h : Fin 16) (n m : Fin 49) :
    scores x0 x1 xb xm (ix4 wl h n m)
      = (∑ e : Fin 32, x0 (ix5 (0 : Fin 1) wl h n e) * x1 (ix5 (0 : Fin 1) wl h m e)) * Cert.WinAttn.scale + xb (ix3 h n m) + xm (ix3 wl n m) := by
  unfold scores
  refine congrArg₂ (· + ·) (congrArg₂ (· + ·) ?_ (bias_spread xb _ _ _ wl h n m)) (mask_spread xm _ _ wl h n m)
  refine (shapeCast_apply _ _ (ix4 wl h n m) (ix3 (⟨wl.val * 16 + h.val, by omega⟩ : Fin 256) n m) ?_).trans ?_
  · rw [Shape.rowMajor_val_three, Shape.rowMajor_val_four]
    show ((wl.val * 16 + h.val) * 49 + n.val) * 49 + m.val = ((wl.val * 16 + h.val) * 49 + n.val) * 49 + m.val
    rfl
  · refine congrArg (· * Cert.WinAttn.scale) ?_
    refine (Ideal.matmul_constant_zero_apply Dqk none _ _ _).trans ?_
    refine (Equiv.sum_comp (contrEquiv1 Dqk 32 rfl rfl).symm _).symm.trans ?_
    refine Finset.sum_congr rfl fun e _ => ?_
    rw [qk_lidx, qk_ridx]
    exact congrArg₂ (· * ·) (flat3 x0 _ _ wl h n e) (flat3 x1 _ _ wl h m e)

/-- The inserted index of a row reduction. -/
theorem lift_row (hr : S16x16x49x49.Reduces [3] S16x16x49) (wl h : Fin 16) (n m : Fin 49) :
    hr.lift (ix3 wl h n) m = ix4 wl h n m :=
  funext fun a => Fin.ext (match a with
    | ⟨0, _⟩ => rfl
    | ⟨1, _⟩ => rfl
    | ⟨2, _⟩ => rfl
    | ⟨3, _⟩ => rfl)

/-- The row maxima are the maxima of the rows. -/
theorem rowMaxes_apply (s : FVec Ideal S16x16x49x49 .f32) (wl h : Fin 16) (n : Fin 49) :
    rowMaxes s (ix3 wl h n) = Cert.WinAttn.rowMax fun m => s (ix4 wl h n m) := by
  unfold rowMaxes
  refine (Ideal.multiReduction_maximumf_single s _ _ _ _ (ix3 wl h n)).trans ?_
  exact Finset.fold_congr fun m _ => congrArg s (lift_row _ wl h n m)

/-- The row sums are the sums of the rows. -/
theorem rowSums_apply (p : FVec Ideal S16x16x49x49 .f32) (wl h : Fin 16) (n : Fin 49) :
    rowSums p (ix3 wl h n) = ∑ m : Fin 49, p (ix4 wl h n m) := by
  unfold rowSums
  refine (Ideal.multiReduction_add_single p _ _ _ _ (ix3 wl h n)).trans ?_
  exact Finset.sum_congr rfl fun m _ => congrArg p (lift_row _ wl h n m)

theorem exps_apply (s : FVec Ideal S16x16x49x49 .f32) (wl h : Fin 16) (n m : Fin 49) :
    exps s (ix4 wl h n m) = Cert.WinAttn.expRow (fun m' => s (ix4 wl h n m')) m := by
  unfold exps Cert.WinAttn.expRow
  show Ideal.exp (s (ix4 wl h n m) - _) = _
  rw [row_spread, rowMaxes_apply]

theorem weights_apply (p : FVec Ideal S16x16x49x49 .f32) (wl h : Fin 16) (n m : Fin 49) :
    weights p (ix4 wl h n m) = Ideal.div (p (ix4 wl h n m)) (∑ m' : Fin 49, p (ix4 wl h n m')) := by
  unfold weights
  show Ideal.div (p (ix4 wl h n m)) _ = _
  rw [row_spread, rowSums_apply]

/-- The softmax weights of a row of scores. -/
theorem softmax_apply (s : FVec Ideal S16x16x49x49 .f32) (wl h : Fin 16) (n m : Fin 49) :
    weights (exps s) (ix4 wl h n m) = Cert.WinAttn.prob (fun m' => s (ix4 wl h n m')) m := by
  rw [weights_apply, exps_apply]
  unfold Cert.WinAttn.prob
  exact congrArg _ (Finset.sum_congr rfl fun m' _ => exps_apply s wl h n m')

/-- The stored block at window wl, position n, channel c = 32 head + d: the weighted sum of the values. -/
theorem laid_apply (v : FVec Ideal S256x49x32 .bf16) (w : FVec Ideal S256x49x49 .bf16) (wl h : Fin 16) (n : Fin 49) (d : Fin 32) :
    laid v w (ix4 (0 : Fin 1) wl n (⟨h.val * 32 + d.val, by omega⟩ : Fin 512))
      = ∑ m : Fin 49, w (ix3 (⟨wl.val * 16 + h.val, by omega⟩ : Fin 256) n m) * v (ix3 (⟨wl.val * 16 + h.val, by omega⟩ : Fin 256) m d) := by
  unfold laid
  refine (shapeCast_apply _ _ _ (ix3 wl n (⟨h.val * 32 + d.val, by omega⟩ : Fin 512)) ?_).trans ?_
  · rw [Shape.rowMajor_val_three, Shape.rowMajor_val_four]
    show (wl.val * 49 + n.val) * 512 + (h.val * 32 + d.val) = (((0 : Fin 1).val * 16 + wl.val) * 49 + n.val) * 512 + (h.val * 32 + d.val)
    simp
  refine (shapeCast_apply _ _ _ (ix4 wl n h d) ?_).trans ?_
  · rw [Shape.rowMajor_val_three, Shape.rowMajor_val_four]
    show ((wl.val * 49 + n.val) * 16 + h.val) * 32 + d.val = (wl.val * 49 + n.val) * 512 + (h.val * 32 + d.val)
    omega
  refine (transpose_apply _ _ _ (ix4 wl n h d) (ix4 wl h n d) (fun b => ?_)).trans ?_
  · match b with
    | ⟨0, _⟩ => rfl
    | ⟨1, _⟩ => rfl
    | ⟨2, _⟩ => rfl
    | ⟨3, _⟩ => rfl
  refine (shapeCast_apply _ _ (ix4 wl h n d) (ix3 (⟨wl.val * 16 + h.val, by omega⟩ : Fin 256) n d) ?_).trans ?_
  · rw [Shape.rowMajor_val_three, Shape.rowMajor_val_four]
    rfl
  refine (Ideal.matmul_constant_zero_apply Dpv none _ _ _).trans ?_
  refine (Equiv.sum_comp (contrEquiv1 Dpv 49 rfl rfl).symm _).symm.trans ?_
  refine Finset.sum_congr rfl fun m _ => ?_
  rw [pv_lidx, pv_ridx]

/-- One window and head of a step, as arithmetic on the blocks. -/
def blockAtt (x0 x1 x2 : S1x16x16x49x32.Idx → EReal) (xb xm : S16x49x49.Idx → EReal) (wl h : Fin 16) (n : Fin 49) (d : Fin 32) : EReal :=
  ∑ m : Fin 49, Cert.WinAttn.prob (fun m' => (∑ e : Fin 32, x0 (ix5 (0 : Fin 1) wl h n e) * x1 (ix5 (0 : Fin 1) wl h m' e)) * Cert.WinAttn.scale
      + xb (ix3 h n m') + xm (ix3 wl n m')) m * x2 (ix5 (0 : Fin 1) wl h m d)

/-- The body's stored block, entry by entry. -/
theorem pay_apply (x0 x1 x2 : FVec Ideal S1x16x16x49x32 .bf16) (xb xm : FVec Ideal S16x49x49 .f32) (wl h : Fin 16) (n : Fin 49) (d : Fin 32) :
    k0_pay1 (F := Ideal) (k0_pay2 x2) (k0_pay3 x0 x1 xb xm) (ix4 (0 : Fin 1) wl n (⟨h.val * 32 + d.val, by omega⟩ : Fin 512))
      = blockAtt x0 x1 x2 xb xm wl h n d := by
  rw [pay1_eq, laid_apply, pay3_eq]
  unfold blockAtt
  refine Finset.sum_congr rfl fun m _ => congrArg₂ (· * ·) ?_ (flat3 x2 _ _ wl h m d)
  refine (shapeCast_apply _ _ _ (ix4 wl h n m) ?_).trans ?_
  · rw [Shape.rowMajor_val_three, Shape.rowMajor_val_four]
    rfl
  show weights (exps (scores x0 x1 xb xm)) (ix4 wl h n m) = _
  rw [softmax_apply]
  exact congrArg (fun s => Cert.WinAttn.prob s m) (funext fun m' => scores_apply x0 x1 xb xm wl h n m')

/-- The same at any index of the stored block: window `y 1`, position `y 2`, channel `y 3` = 32 head + d. -/
theorem pay_at (x0 x1 x2 : FVec Ideal S1x16x16x49x32 .bf16) (xb xm : FVec Ideal S16x49x49 .f32) (y : S1x16x49x512.Idx) :
    k0_pay1 (F := Ideal) (k0_pay2 x2) (k0_pay3 x0 x1 xb xm) y
      = blockAtt x0 x1 x2 xb xm (y 1) (⟨(y 3).val / 32, by have h : (y 3).val < 512 := (y 3).isLt; omega⟩ : Fin 16) (y 2)
          (⟨(y 3).val % 32, by omega⟩ : Fin 32) := by
  obtain ⟨a, wl, n, c, rfl⟩ : ∃ (a : Fin 1) (wl : Fin 16) (n : Fin 49) (c : Fin 512), y = ix4 a wl n c :=
    ⟨y 0, y 1, y 2, y 3, eq_ix4 y⟩
  obtain rfl : a = 0 := Subsingleton.elim _ _
  have hc : (⟨c.val / 32 * 32 + c.val % 32, by have := c.isLt; omega⟩ : Fin 512) = c := Fin.ext (by show c.val / 32 * 32 + c.val % 32 = c.val; omega)
  have key := pay_apply x0 x1 x2 xb xm wl (⟨c.val / 32, by have := c.isLt; omega⟩ : Fin 16) n (⟨c.val % 32, by omega⟩ : Fin 32)
  exact (congrArg (fun z => k0_pay1 (F := Ideal) (k0_pay2 x2) (k0_pay3 x0 x1 xb xm) (ix4 (0 : Fin 1) wl n z)) hc.symm).trans key

end Cert.KernelIdeal.Body

end
-- ==== Proof.KerHost.lean ====
/-
  What the host lines before the kernel leave in the arrays it reads: the three prepared slabs, laid
  (image, window, head, position, channel), and the bias table gathered to (head, n, m).
-/
import proofs.«150819_j67637144977770_2_alg».proof.Proof.Gen.KernelIdeal.Frame
import proofs.«150819_j67637144977770_2_alg».proof.Proof.Spec
import Idealize.ShloMosaic.Lib.StableHlo.Run
import Idealize.ShloMosaic.Lib.ValueIdx
import Idealize.ShloMosaic.Lib.Pipeline.Value

noncomputable section

namespace Cert.KernelIdeal.Host

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-- The table of relative-position numbers, as a 49 x 49 array of words. -/
def relIdx : S49x49.Idx → BitVec 32 := fun i => lit0 (S49x49.rowMajor i)

/-- The bias (head, n, m): the bias table's row at the relative-position number of (n, m), entry head. -/
def biasK (T : S169x16.Idx → EReal) : S16x49x49.Idx → EReal :=
  transpose S16x49x49 [2, 0, 1]
    (Host.gather gather_S169x16_S49x49x1_S49x49x16_2_0_n_n_0_2_116 T
      (broadcastInDim S49x49x1 ![0, 1] bcast_S49x49_S49x49x1_0_1
        (select (constantI S49x49 1 0#1) (addi relIdx (broadcastInDim S49x49 ![] bcast_S_S49x49 (constantI S_ 32 169#32))) relIdx)))
    transposes_S49x49x16_S16x49x49_2_0_1

/-- A prepared slab as the kernel reads it: heads before positions. -/
def slabK (off : Fin 5 → Nat) (hs : Cert.WinAttn.SX.Slices off Cert.WinAttn.SX1) (X : S3x32x56x56x512.Idx → EReal) : S32x64x16x49x32.Idx → EReal :=
  transpose S32x64x16x49x32 [0, 1, 3, 2, 4] (Cert.WinAttn.prep off hs X) transposes_S32x64x49x16x32_S32x64x16x49x32_0_1_3_2_4

/-- Its entry at (image, window, head, position, channel) is the prepared slab's at (image, window, position, head, channel). -/
theorem slabK_apply (off : Fin 5 → Nat) (hs : Cert.WinAttn.SX.Slices off Cert.WinAttn.SX1) (X : S3x32x56x56x512.Idx → EReal)
    (b : Fin 32) (w : Fin 64) (h : Fin 16) (n : Fin 49) (e : Fin 32) :
    slabK off hs X (ix5 b w h n e) = Cert.WinAttn.prep off hs X (ix5 b w n h e) := by
  unfold slabK
  refine transpose_apply _ _ _ (ix5 b w h n e) (ix5 b w n h e) (fun a => ?_)
  match a with
  | ⟨0, _⟩ => rfl
  | ⟨1, _⟩ => rfl
  | ⟨2, _⟩ => rfl
  | ⟨3, _⟩ => rfl
  | ⟨4, _⟩ => rfl

set_option maxHeartbeats 4000000 in
theorem V_q (c : Dev nD) : (V m c main_v13 : S32x64x16x49x32.Idx → EReal)
    = slabK ![0, 0, 0, 0, 0] slices_S3x32x56x56x512_S1x32x56x56x512_0_0_0_0_0 (m ((c : Thread nD τ).loc main_arg0)) := by
  show StableHlo.after hostOps0 (fun b => m (c, b)) (Proc.devRef .tc main_v13) = _
  after_results_simp
  rfl

set_option maxHeartbeats 4000000 in
theorem V_k (c : Dev nD) : (V m c main_v18 : S32x64x16x49x32.Idx → EReal)
    = slabK ![1, 0, 0, 0, 0] slices_S3x32x56x56x512_S1x32x56x56x512_1_0_0_0_0 (m ((c : Thread nD τ).loc main_arg0)) := by
  show StableHlo.after hostOps0 (fun b => m (c, b)) (Proc.devRef .tc main_v18) = _
  after_results_simp
  rfl

set_option maxHeartbeats 4000000 in
theorem V_v (c : Dev nD) : (V m c main_v23 : S32x64x16x49x32.Idx → EReal)
    = slabK ![2, 0, 0, 0, 0] slices_S3x32x56x56x512_S1x32x56x56x512_2_0_0_0_0 (m ((c : Thread nD τ).loc main_arg0)) := by
  show StableHlo.after hostOps0 (fun b => m (c, b)) (Proc.devRef .tc main_v23) = _
  after_results_simp
  rfl

set_option maxHeartbeats 4000000 in
theorem V_bias (c : Dev nD) : (V m c main_v29 : S16x49x49.Idx → EReal) = biasK (m ((c : Thread nD τ).loc main_arg2)) := by
  show StableHlo.after hostOps0 (fun b => m (c, b)) (Proc.devRef .tc main_v29) = _
  after_results_simp
  rfl

end Cert.KernelIdeal.Host

end
-- ==== Proof.KerBlocks.lean ====
/-
  From the 128 grid steps to the whole output array.  Step t = (image b, window group wi) reads the blocks
  (b, 16 wi … 16 wi + 15) of the three slabs and of the masks and writes block (b, 16 wi … 16 wi + 15) of the
  output; every entry it writes is the attention output of its own window, head and position, so the array
  ends as one function of the inputs.
-/
import proofs.«150819_j67637144977770_2_alg».proof.Proof.Gen.KernelIdeal.Frame
import proofs.«150819_j67637144977770_2_alg».proof.Proof.KerPay
import proofs.«150819_j67637144977770_2_alg».proof.Proof.KerHost
import proofs.«150819_j67637144977770_2_alg».proof.Proof.Spec
import Idealize.ShloMosaic.Lib.Pipeline.Value

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Host

variable (m : (ℓ : Loc nD τ sig) → Buf (Elt Ideal) ℓ) (ρ : Dev nD → PrngReg)

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Where each window's block sits at step t, relative to the output's block (image, window group). -/
theorem idx_facts : ∀ t : Fin cfg0.N,
    (win0_0.index t (0 : Fin 5) = win0_5.index t (0 : Fin 4) ∧ win0_0.index t (1 : Fin 5) = win0_5.index t (1 : Fin 4)
      ∧ win0_0.index t (2 : Fin 5) = 0 ∧ win0_0.index t (3 : Fin 5) = 0 ∧ win0_0.index t (4 : Fin 5) = 0)
    ∧ (win0_1.index t (0 : Fin 5) = win0_5.index t (0 : Fin 4) ∧ win0_1.index t (1 : Fin 5) = win0_5.index t (1 : Fin 4)
      ∧ win0_1.index t (2 : Fin 5) = 0 ∧ win0_1.index t (3 : Fin 5) = 0 ∧ win0_1.index t (4 : Fin 5) = 0)
    ∧ (win0_2.index t (0 : Fin 5) = win0_5.index t (0 : Fin 4) ∧ win0_2.index t (1 : Fin 5) = win0_5.index t (1 : Fin 4)
      ∧ win0_2.index t (2 : Fin 5) = 0 ∧ win0_2.index t (3 : Fin 5) = 0 ∧ win0_2.index t (4 : Fin 5) = 0)
    ∧ (win0_3.index t (0 : Fin 3) = win0_5.index t (1 : Fin 4) ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 4) < 32 ∧ win0_5.index t (1 : Fin 4) < 4 ∧ win0_5.index t (2 : Fin 4) = 0 ∧ win0_5.index t (3 : Fin 4) = 0) :=
  (by decide +kernel : ∀ t : Fin grid0.N, _)

/-- Every (image, window group) is some step's. -/
theorem idx_onto : ∀ (q0 : Fin 32) (q1 : Fin 4), ∃ t : Fin cfg0.N, win0_5.index t = ![q0.val, q1.val, 0, 0] :=
  (by decide +kernel : ∀ (q0 : Fin 32) (q1 : Fin 4), ∃ t : Fin grid0.N, win0_5.index t = ![q0.val, q1.val, 0, 0])

/-! ## The blocks a step reads -/

section Reads
variable (c : Dev nD) (t : Fin cfg0.N) (b : Fin 32) (w : Fin 64) (wl : Fin 16)
  (hb : b.val = win0_5.index t (0 : Fin 4)) (hw : w.val = win0_5.index t (1 : Fin 4) * 16 + wl.val)
include hb hw

/-- Step t's block of a slab laid (image, window, head, position, channel): entry (0, wl, h, n, e) of the block is
    entry (b, w, h, n, e) of the array. -/
theorem read_q (A : S32x64x16x49x32.Idx → EReal) (h : Fin 16) (n : Fin 49) (e : Fin 32) :
    ((cfg0.win 0).blk t).view.read (Elt Ideal) A (ix5 (0 : Fin 1) wl h n e) = A (ix5 b w h n e) := by
  obtain ⟨⟨e0, e1, e2, e3, e4⟩, -⟩ := idx_facts t
  rw [View.read_apply]
  show A _ = A _
  refine congrArg A (funext fun a => Fin.ext ?_)
  match a with
  | ⟨0, _⟩ => show win0_0.index t (0 : Fin 5) * 1 + 1 * 0 = b.val; omega
  | ⟨1, _⟩ => show win0_0.index t (1 : Fin 5) * 16 + 1 * wl.val = w.val; omega
  | ⟨2, _⟩ => show win0_0.index t (2 : Fin 5) * 16 + 1 * h.val = h.val; omega
  | ⟨3, _⟩ => show win0_0.index t (3 : Fin 5) * 49 + 1 * n.val = n.val; omega
  | ⟨4, _⟩ => show win0_0.index t (4 : Fin 5) * 32 + 1 * e.val = e.val; omega

theorem read_k (A : S32x64x16x49x32.Idx → EReal) (h : Fin 16) (n : Fin 49) (e : Fin 32) :
    ((cfg0.win 1).blk t).view.read (Elt Ideal) A (ix5 (0 : Fin 1) wl h n e) = A (ix5 b w h n e) := by
  obtain ⟨-, ⟨e0, e1, e2, e3, e4⟩, -⟩ := idx_facts t
  rw [View.read_apply]
  show A _ = A _
  refine congrArg A (funext fun a => Fin.ext ?_)
  match a with
  | ⟨0, _⟩ => show win0_1.index t (0 : Fin 5) * 1 + 1 * 0 = b.val; omega
  | ⟨1, _⟩ => show win0_1.index t (1 : Fin 5) * 16 + 1 * wl.val = w.val; omega
  | ⟨2, _⟩ => show win0_1.index t (2 : Fin 5) * 16 + 1 * h.val = h.val; omega
  | ⟨3, _⟩ => show win0_1.index t (3 : Fin 5) * 49 + 1 * n.val = n.val; omega
  | ⟨4, _⟩ => show win0_1.index t (4 : Fin 5) * 32 + 1 * e.val = e.val; omega

theorem read_v (A : S32x64x16x49x32.Idx → EReal) (h : Fin 16) (n : Fin 49) (e : Fin 32) :
    ((cfg0.win 2).blk t).view.read (Elt Ideal) A (ix5 (0 : Fin 1) wl h n e) = A (ix5 b w h n e) := by
  obtain ⟨-, -, ⟨e0, e1, e2, e3, e4⟩, -⟩ := idx_facts t
  rw [View.read_apply]
  show A _ = A _
  refine congrArg A (funext fun a => Fin.ext ?_)
  match a with
  | ⟨0, _⟩ => show win0_2.index t (0 : Fin 5) * 1 + 1 * 0 = b.val; omega
  | ⟨1, _⟩ => show win0_2.index t (1 : Fin 5) * 16 + 1 * wl.val = w.val; omega
  | ⟨2, _⟩ => show win0_2.index t (2 : Fin 5) * 16 + 1 * h.val = h.val; omega
  | ⟨3, _⟩ => show win0_2.index t (3 : Fin 5) * 49 + 1 * n.val = n.val; omega
  | ⟨4, _⟩ => show win0_2.index t (4 : Fin 5) * 32 + 1 * e.val = e.val; omega

omit hb in
/-- Step t's block of the masks: entry (wl, n, k) of the block is entry (w, n, k) of the array. -/
theorem read_mask (A : S64x49x49.Idx → EReal) (n k : Fin 49) :
    ((cfg0.win 3).blk t).view.read (Elt Ideal) A (ix3 wl n k) = A (ix3 w n k) := by
  obtain ⟨-, -, -, ⟨e0, e1, e2⟩, -⟩ := idx_facts t
  rw [View.read_apply]
  show A _ = A _
  refine congrArg A (funext fun a => Fin.ext ?_)
  match a with
  | ⟨0, _⟩ => show win0_3.index t (0 : Fin 3) * 16 + 1 * wl.val = w.val; omega
  | ⟨1, _⟩ => show win0_3.index t (1 : Fin 3) * 49 + 1 * n.val = n.val; omega
  | ⟨2, _⟩ => show win0_3.index t (2 : Fin 3) * 49 + 1 * k.val = k.val; omega

omit hb hw in
/-- The bias is read whole at every step. -/
theorem read_bias (A : S16x49x49.Idx → EReal) (h : Fin 16) (n k : Fin 49) :
    ((cfg0.win 4).blk t).view.read (Elt Ideal) A (ix3 h n k) = A (ix3 h n k) := by
  obtain ⟨-, -, -, -, ⟨e0, e1, e2⟩, -⟩ := idx_facts t
  rw [View.read_apply]
  show A _ = A _
  refine congrArg A (funext fun a => Fin.ext ?_)
  match a with
  | ⟨0, _⟩ => show win0_4.index t (0 : Fin 3) * 16 + 1 * h.val = h.val; omega
  | ⟨1, _⟩ => show win0_4.index t (1 : Fin 3) * 49 + 1 * n.val = n.val; omega
  | ⟨2, _⟩ => show win0_4.index t (2 : Fin 3) * 49 + 1 * k.val = k.val; omega

end Reads

/-! ## One step's window is the layer's window -/

/-- The three prepared slabs, the bias and the mask of a launch. -/
abbrev Yq (c : Dev nD) := Cert.WinAttn.prep ![0, 0, 0, 0, 0] slices_S3x32x56x56x512_S1x32x56x56x512_0_0_0_0_0 (m ((c : Thread nD τ).loc main_arg0))
abbrev Yk (c : Dev nD) := Cert.WinAttn.prep ![1, 0, 0, 0, 0] slices_S3x32x56x56x512_S1x32x56x56x512_1_0_0_0_0 (m ((c : Thread nD τ).loc main_arg0))
abbrev Yv (c : Dev nD) := Cert.WinAttn.prep ![2, 0, 0, 0, 0] slices_S3x32x56x56x512_S1x32x56x56x512_2_0_0_0_0 (m ((c : Thread nD τ).loc main_arg0))
abbrev Bk (c : Dev nD) := biasK (m ((c : Thread nD τ).loc main_arg2))
abbrev Mk (c : Dev nD) : S64x49x49.Idx → EReal := m ((c : Thread nD τ).loc main_arg1)

section At
variable (c : Dev nD) (t : Fin cfg0.N) (b : Fin 32) (w : Fin 64) (wl : Fin 16)
  (hb : b.val = win0_5.index t (0 : Fin 4)) (hw : w.val = win0_5.index t (1 : Fin 4) * 16 + wl.val)
include hb hw

theorem q_at (h : Fin 16) (n : Fin 49) (e : Fin 32) :
    (iblk m c 0 t : S1x16x16x49x32.Idx → EReal) (ix5 (0 : Fin 1) wl h n e) = Yq m c (ix5 b w n h e) :=
  (read_q t b w wl hb hw (V m c main_v13) h n e).trans
    ((congrFun (V_q m c) (ix5 b w h n e)).trans (slabK_apply _ _ _ b w h n e))

theorem k_at (h : Fin 16) (n : Fin 49) (e : Fin 32) :
    (iblk m c 1 t : S1x16x16x49x32.Idx → EReal) (ix5 (0 : Fin 1) wl h n e) = Yk m c (ix5 b w n h e) :=
  (read_k t b w wl hb hw (V m c main_v18) h n e).trans
    ((congrFun (V_k m c) (ix5 b w h n e)).trans (slabK_apply _ _ _ b w h n e))

theorem v_at (h : Fin 16) (n : Fin 49) (e : Fin 32) :
    (iblk m c 2 t : S1x16x16x49x32.Idx → EReal) (ix5 (0 : Fin 1) wl h n e) = Yv m c (ix5 b w n h e) :=
  (read_v t b w wl hb hw (V m c main_v23) h n e).trans
    ((congrFun (V_v m c) (ix5 b w h n e)).trans (slabK_apply _ _ _ b w h n e))

omit hb in
theorem mask_at (n k : Fin 49) :
    (iblk m c 3 t : S16x49x49.Idx → EReal) (ix3 wl n k) = Mk m c (ix3 w n k) :=
  (read_mask t w wl hw (V m c main_arg1) n k).trans (congrFun (V_main_arg1 m c) (ix3 w n k))

omit hb hw in
theorem bias_at (h : Fin 16) (n k : Fin 49) :
    (iblk m c 4 t : S16x49x49.Idx → EReal) (ix3 h n k) = Bk m c (ix3 h n k) :=
  (read_bias t (V m c main_v29) h n k).trans (congrFun (V_bias m c) (ix3 h n k))

end At

theorem block_att (c : Dev nD) (t : Fin cfg0.N) (b : Fin 32) (w : Fin 64) (wl : Fin 16)
    (hb : b.val = win0_5.index t (0 : Fin 4)) (hw : w.val = win0_5.index t (1 : Fin 4) * 16 + wl.val)
    (h : Fin 16) (n : Fin 49) (d : Fin 32) :
    blockAtt (iblk m c 0 t) (iblk m c 1 t) (iblk m c 2 t) (iblk m c 4 t) (iblk m c 3 t) wl h n d
      = Cert.WinAttn.att (Yq m c) (Yk m c) (Yv m c) (Bk m c) (Mk m c) b w h n d := by
  unfold blockAtt Cert.WinAttn.att Cert.WinAttn.score
  refine Finset.sum_congr rfl fun mm _ => congrArg₂ (· * ·)
    (congrArg (fun s => Cert.WinAttn.prob s mm) (funext fun m' => ?_)) ?_
  · refine congrArg₂ (· + ·) (congrArg₂ (· + ·) (congrArg (· * Cert.WinAttn.scale)
      (Finset.sum_congr rfl fun e _ => congrArg₂ (· * ·) ?_ ?_)) ?_) ?_
    · exact q_at m c t b w wl hb hw h n e
    · exact k_at m c t b w wl hb hw h m' e
    · exact bias_at m c t h n m'
    · exact mask_at m c t w wl hw n m'
  · exact v_at m c t b w wl hb hw h mm d

/-! ## The output array -/

/-- The output at image b, window w, position n, channel c. -/
def G30at (c : Dev nD) (b : Fin 32) (w : Fin 64) (n : Fin 49) (ch : Fin 512) : EReal :=
  Cert.WinAttn.att (Yq m c) (Yk m c) (Yv m c) (Bk m c) (Mk m c) b w
    (⟨ch.val / 32, by have := ch.isLt; omega⟩ : Fin 16) n (⟨ch.val % 32, by omega⟩ : Fin 32)

/-- The array the kernel fills: (image, window, position, channel). -/
def G30 (c : Dev nD) : S32x64x49x512.Idx → EReal := fun i => G30at m c (i 0) (i 1) (i 2) (i 3)

/-- What step t writes back is its block of that array. -/
theorem flushed_eq (c : Dev nD) (t : Fin cfg0.N) :
    (dats m 0 c).flushed 5 t = ((cfg0.win 5).blk t).view.read (Elt Ideal) (G30 m c) := by
  show (cfg0.win 5).cut (grid0.coords t) ((dats m 0 c).after 5 t) = _
  rw [after0_5]
  unfold out0_5
  rw [View.canon_unit_zero hz4]
  simp only [View.ld_unit_zero (S := S1x16x16x49x32) hz5, View.ld_unit_zero (S := S16x49x49) hz3]
  obtain ⟨-, -, -, -, -, ⟨f0, f1, f2, f3⟩⟩ := idx_facts t
  funext j
  show k0_pay1 (F := Ideal) (k0_pay2 (iblk m c 2 t)) (k0_pay3 (iblk m c 0 t) (iblk m c 1 t) (iblk m c 4 t) (iblk m c 3 t)) j
    = G30 m c (((cfg0.win 5).blk t).view.emb j)
  have hj0 : (j 0).val < 1 := (j 0).isLt
  have hj1 : (j 1).val < 16 := (j 1).isLt
  have hj2 : (j 2).val < 49 := (j 2).isLt
  have hj3 : (j 3).val < 512 := (j 3).isLt
  have g0 : ((((cfg0.win 5).blk t).view.emb j) 0).val = win0_5.index t (0 : Fin 4) := by
    show win0_5.index t (0 : Fin 4) * 1 + 1 * (j 0).val = _; omega
  have g1 : ((((cfg0.win 5).blk t).view.emb j) 1).val = win0_5.index t (1 : Fin 4) * 16 + (j 1).val := by
    show win0_5.index t (1 : Fin 4) * 16 + 1 * (j 1).val = _; omega
  have g2 : ((((cfg0.win 5).blk t).view.emb j) 2 : Fin 49) = j 2 := Fin.ext (by
    show win0_5.index t (2 : Fin 4) * 49 + 1 * (j 2).val = (j 2).val; omega)
  have g3 : ((((cfg0.win 5).blk t).view.emb j) 3 : Fin 512) = j 3 := Fin.ext (by
    show win0_5.index t (3 : Fin 4) * 512 + 1 * (j 3).val = (j 3).val; omega)
  refine (pay_at (iblk m c 0 t) (iblk m c 1 t) (iblk m c 2 t) (iblk m c 4 t) (iblk m c 3 t) j).trans ?_
  refine (block_att m c t ((((cfg0.win 5).blk t).view.emb j) 0) ((((cfg0.win 5).blk t).view.emb j) 1) (j 1) g0 g1 _ (j 2) _).trans ?_
  unfold G30
  rw [g2, g3]
  rfl

/-- An index of the array is in step t's block iff each coordinate is in the block's range. -/
theorem mem_blk (t : Fin cfg0.N) (i : S32x64x49x512.Idx) :
    i ∈ ((cfg0.win 5).blk t).view.set ↔ ∀ a : Fin 4, win0_5.index t a * S1x16x49x512.size a ≤ (i a).val
      ∧ (i a).val < win0_5.index t a * S1x16x49x512.size a + S1x16x49x512.size a := by
  show i ∈ ((View.whole main_v30).slice (win0_5.rect t)).set ↔ _
  rw [View.set_slice_whole, Rect.mem_set_unit]
  exact Iff.rfl

/-- Every index of the array is in some step's block. -/
theorem cover (i : S32x64x49x512.Idx) : ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 49 := (i 2).isLt
  have hi3 : (i 3).val < 512 := (i 3).isLt
  obtain ⟨t, ht⟩ := idx_onto ⟨(i 0).val, hi0⟩ ⟨(i 1).val / 16, by omega⟩
  have q0 : win0_5.index t (0 : Fin 4) = (i 0).val := congrFun ht 0
  have q1 : win0_5.index t (1 : Fin 4) = (i 1).val / 16 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 49 ≤ (i 2).val ∧ (i 2).val < win0_5.index t (2 : Fin 4) * 49 + 49; omega
  | ⟨3, _⟩ => show win0_5.index t (3 : Fin 4) * 512 ≤ (i 3).val ∧ (i 3).val < win0_5.index t (3 : Fin 4) * 512 + 512; omega

/-- The output array after the last step. -/
theorem final (c : Dev nD) : (dats m 0 c).arrAt 5 cfg0.N = G30 m c :=
  (dats m 0 c).arrAt_eq_of_cover 5 (G30 m c) (fun t _ => flushed_eq m c t) cover

end Cert.KernelIdeal.Blocks

end
-- ==== Proof.KerTail.lean ====
/-
  The kernel program's run, with its result named: after the 128 steps the (image, window, position, channel)
  array holds the attention outputs, and the last host line re-lays it with the windows numbered over all images.
-/
import proofs.«150819_j67637144977770_2_alg».proof.Proof.Gen.KernelIdeal.Frame
import proofs.«150819_j67637144977770_2_alg».proof.Proof.KerBlocks
import Idealize.ShloMosaic.Lib.StableHlo.Run

noncomputable section

namespace Cert.KernelIdeal.Tail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks

variable (m : (ℓ : Loc nD τ sig) → Buf (Elt Ideal) ℓ) (ρ : Dev nD → PrngReg)

/-- The program's result: the output array with (image, window) flattened to one window number. -/
def result (c : Dev nD) : S2048x49x512.Idx → EReal :=
  shapeCast S2048x49x512 (G30 m c) shapeCasts_S32x64x49x512_S2048x49x512

/-- The result buffer after the run. -/
theorem post_out (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v31) = result m c := by
  refine ((h c).2 main_v31 (Pipeline.mem_restRefs_of main_v31 (by decide) (by decide))).trans ?_
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30) = G30 m c :=
    (Pipeline.withArrays_arr spec0 launch0.win.arr_inj c (V0 m c) (fun w => (dats m 0 c).arrAt w cfg0.N) 5).trans (final m c)
  rw [e]
  rfl

/-- The kernel program runs, ends with `result` in its result buffer, and leaves its arguments as launched. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_out m r h c,
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c)⟩)
    (run_main m ρ)

/-- The result, entry by entry, is the layer's output. -/
theorem result_eq (c : Dev nD) :
    result m c = Cert.WinAttn.out (Yq m c) (Yk m c) (Yv m c) (Bk m c) (Mk m c) := by
  funext i
  obtain ⟨bw, n, ch, rfl⟩ : ∃ (bw : Fin 2048) (n : Fin 49) (ch : Fin 512), i = ix3 bw n ch := ⟨i 0, i 1, i 2, eq_ix3 i⟩
  unfold result
  refine (shapeCast_apply _ _ (ix3 bw n ch)
    (ix4 (⟨bw.val / 64, by have := bw.isLt; omega⟩ : Fin 32) (⟨bw.val % 64, by omega⟩ : Fin 64) n ch) ?_).trans ?_
  · rw [Shape.rowMajor_val_three, Shape.rowMajor_val_four]
    show ((bw.val / 64 * 64 + bw.val % 64) * 49 + n.val) * 512 + ch.val = (bw.val * 49 + n.val) * 512 + ch.val
    have : bw.val / 64 * 64 + bw.val % 64 = bw.val := by omega
    rw [this]
  · rfl

end Cert.KernelIdeal.Tail

end
-- ==== Proof.RefTerm.lean ====
/-
  The reference program's @main as the list of its 61 host operations, and the composed term of its result over the
  three arguments, built from named intermediate terms (the three prepared slabs, the bias, the scores, the
  exponentials), each the program's own expression for its buffer.
-/
import proofs.«150819_j67637144977770_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 61 operations, in order. -/
abbrev ops : List (HloOp τ sig (Elt F)) :=
  [ nullary main_c (fun i => lit0 (S49x49.rowMajor i)),
    unary main_arg0 main_v0 ((extractStridedSlice S1x32x56x56x512 ![0, 0, 0, 0, 0] · slices_S3x32x56x56x512_S1x32x56x56x512_0_0_0_0_0) : (⟨S3x32x56x56x512, .f32⟩ : BufTy).Contents (Elt F) → (⟨S1x32x56x56x512, .f32⟩ : BufTy).Contents (Elt F)),
    reshape main_v0 main_v1 rfl shapeCasts_S1x32x56x56x512_S32x56x56x512,
    unary main_arg0 main_v2 ((extractStridedSlice S1x32x56x56x512 ![1, 0, 0, 0, 0] · slices_S3x32x56x56x512_S1x32x56x56x512_1_0_0_0_0) : (⟨S3x32x56x56x512, .f32⟩ : BufTy).Contents (Elt F) → (⟨S1x32x56x56x512, .f32⟩ : BufTy).Contents (Elt F)),
    reshape main_v2 main_v3 rfl shapeCasts_S1x32x56x56x512_S32x56x56x512,
    unary main_arg0 main_v4 ((extractStridedSlice S1x32x56x56x512 ![2, 0, 0, 0, 0] · slices_S3x32x56x56x512_S1x32x56x56x512_2_0_0_0_0) : (⟨S3x32x56x56x512, .f32⟩ : BufTy).Contents (Elt F) → (⟨S1x32x56x56x512, .f32⟩ : BufTy).Contents (Elt F)),
    reshape main_v4 main_v5 rfl shapeCasts_S1x32x56x56x512_S32x56x56x512,
    reshape main_v1 main_v6 rfl shapeCasts_S32x56x56x512_S32x8x7x8x7x512,
    unary main_v6 main_v7 ((transpose S32x8x8x7x7x512 [0, 1, 3, 2, 4, 5] · transposes_S32x8x7x8x7x512_S32x8x8x7x7x512_0_1_3_2_4_5) : (⟨S32x8x7x8x7x512, .f32⟩ : BufTy).Contents (Elt F) → (⟨S32x8x8x7x7x512, .f32⟩ : BufTy).Contents (Elt F)),
    reshape main_v7 main_v8 rfl shapeCasts_S32x8x8x7x7x512_S2048x49x512,
    reshape main_v8 main_v9 rfl shapeCasts_S2048x49x512_S2048x49x16x32,
    unary main_v9 main_v10 ((transpose S2048x16x49x32 [0, 2, 1, 3] · transposes_S2048x49x16x32_S2048x16x49x32_0_2_1_3) : (⟨S2048x49x16x32, .f32⟩ : BufTy).Contents (Elt F) → (⟨S2048x16x49x32, .f32⟩ : BufTy).Contents (Elt F)),
    reshape main_v3 main_v11 rfl shapeCasts_S32x56x56x512_S32x8x7x8x7x512,
    unary main_v11 main_v12 ((transpose S32x8x8x7x7x512 [0, 1, 3, 2, 4, 5] · transposes_S32x8x7x8x7x512_S32x8x8x7x7x512_0_1_3_2_4_5) : (⟨S32x8x7x8x7x512, .f32⟩ : BufTy).Contents (Elt F) → (⟨S32x8x8x7x7x512, .f32⟩ : BufTy).Contents (Elt F)),
    reshape main_v12 main_v13 rfl shapeCasts_S32x8x8x7x7x512_S2048x49x512,
    reshape main_v13 main_v14 rfl shapeCasts_S2048x49x512_S2048x49x16x32,
    unary main_v14 main_v15 ((transpose S2048x16x49x32 [0, 2, 1, 3] · transposes_S2048x49x16x32_S2048x16x49x32_0_2_1_3) : (⟨S2048x49x16x32, .f32⟩ : BufTy).Contents (Elt F) → (⟨S2048x16x49x32, .f32⟩ : BufTy).Contents (Elt F)),
    reshape main_v5 main_v16 rfl shapeCasts_S32x56x56x512_S32x8x7x8x7x512,
    unary main_v16 main_v17 ((transpose S32x8x8x7x7x512 [0, 1, 3, 2, 4, 5] · transposes_S32x8x7x8x7x512_S32x8x8x7x7x512_0_1_3_2_4_5) : (⟨S32x8x7x8x7x512, .f32⟩ : BufTy).Contents (Elt F) → (⟨S32x8x8x7x7x512, .f32⟩ : BufTy).Contents (Elt F)),
    reshape main_v17 main_v18 rfl shapeCasts_S32x8x8x7x7x512_S2048x49x512,
    reshape main_v18 main_v19 rfl shapeCasts_S2048x49x512_S2048x49x16x32,
    unary main_v19 main_v20 ((transpose S2048x16x49x32 [0, 2, 1, 3] · transposes_S2048x49x16x32_S2048x16x49x32_0_2_1_3) : (⟨S2048x49x16x32, .f32⟩ : BufTy).Contents (Elt F) → (⟨S2048x16x49x32, .f32⟩ : BufTy).Contents (Elt F)),
    binary main_v10 main_v15 main_v21 ((fun l r => Host.dotGeneral dot_S2048x16x49x32_S2048x16x49x32_S2048x16x49x49_3_3_2_2_01_01 none l r) : (⟨S2048x16x49x32, .f32⟩ : BufTy).Contents (Elt F) → (⟨S2048x16x49x32, .f32⟩ : BufTy).Contents (Elt F) → (⟨S2048x16x49x49, .f32⟩ : BufTy).Contents (Elt F)),
    nullary main_cst (constant S_ .f32 0x3E3504F3#32),
    unary main_cst main_v22 (broadcastInDim S2048x16x49x49 ![] bcast_S_S2048x16x49x49 : (⟨S_, .f32⟩ : BufTy).Contents (Elt F) → (⟨S2048x16x49x49, .f32⟩ : BufTy).Contents (Elt F)),
    binary main_v21 main_v22 main_v23 (mulf : (⟨S2048x16x49x49, .f32⟩ : BufTy).Contents (Elt F) → (⟨S2048x16x49x49, .f32⟩ : BufTy).Contents (Elt F) → (⟨S2048x16x49x49, .f32⟩ : BufTy).Contents (Elt F)),
    nullary main_c_0 (constantI S_ 32 0#32),
    unary main_c_0 main_v24 (broadcastInDim S49x49 ![] bcast_S_S49x49 : (⟨S_, .i32⟩ : BufTy).Contents (Elt F) → (⟨S49x49, .i32⟩ : BufTy).Contents (Elt F)),
    binary main_c main_v24 main_v25 (cmpi .slt : (⟨S49x49, .i32⟩ : BufTy).Contents (Elt F) → (⟨S49x49, .i32⟩ : BufTy).Contents (Elt F) → (⟨S49x49, .i1⟩ : BufTy).Contents (Elt F)),
    nullary main_c_1 (constantI S_ 32 169#32),
    unary main_c_1 main_v26 (broadcastInDim S49x49 ![] bcast_S_S49x49 : (⟨S_, .i32⟩ : BufTy).Contents (Elt F) → (⟨S49x49, .i32⟩ : BufTy).Contents (Elt F)),
    binary main_c main_v26 main_v27 (addi : (⟨S49x49, .i32⟩ : BufTy).Contents (Elt F) → (⟨S49x49, .i32⟩ : BufTy).Contents (Elt F) → (⟨S49x49, .i32⟩ : BufTy).Contents (Elt F)),
    ternary main_v25 main_v27 main_c main_v28 (select : (⟨S49x49, .i1⟩ : BufTy).Contents (Elt F) → (⟨S49x49, .i32⟩ : BufTy).Contents (Elt F) → (⟨S49x49, .i32⟩ : BufTy).Contents (Elt F) → (⟨S49x49, .i32⟩ : BufTy).Contents (Elt F)),
    unary main_v28 main_v29 (broadcastInDim S49x49x1 ![0, 1] bcast_S49x49_S49x49x1_0_1 : (⟨S49x49, .i32⟩ : BufTy).Contents (Elt F) → (⟨S49x49x1, .i32⟩ : BufTy).Contents (Elt F)),
    binary main_arg2 main_v29 main_v30 ((fun x i => Host.gather gather_S169x16_S49x49x1_S49x49x16_2_0_n_n_0_2_116 x i) : (⟨S169x16, .f32⟩ : BufTy).Contents (Elt F) → (⟨S49x49x1, .i32⟩ : BufTy).Contents (Elt F) → (⟨S49x49x16, .f32⟩ : BufTy).Contents (Elt F)),
    unary main_v30 main_v31 ((transpose S16x49x49 [2, 0, 1] · transposes_S49x49x16_S16x49x49_2_0_1) : (⟨S49x49x16, .f32⟩ : BufTy).Contents (Elt F) → (⟨S16x49x49, .f32⟩ : BufTy).Contents (Elt F)),
    unary main_v31 main_v32 (broadcastInDim S1x16x49x49 ![1, 2, 3] bcast_S16x49x49_S1x16x49x49_1_2_3 : (⟨S16x49x49, .f32⟩ : BufTy).Contents (Elt F) → (⟨S1x16x49x49, .f32⟩ : BufTy).Contents (Elt F)),
    unary main_v32 main_v33 (broadcastInDim S2048x16x49x49 ![0, 1, 2, 3] bcast_S1x16x49x49_S2048x16x49x49_0_1_2_3 : (⟨S1x16x49x49, .f32⟩ : BufTy).Contents (Elt F) → (⟨S2048x16x49x49, .f32⟩ : BufTy).Contents (Elt F)),
    binary main_v23 main_v33 main_v34 (addf : (⟨S2048x16x49x49, .f32⟩ : BufTy).Contents (Elt F) → (⟨S2048x16x49x49, .f32⟩ : BufTy).Contents (Elt F) → (⟨S2048x16x49x49, .f32⟩ : BufTy).Contents (Elt F)),
    reshape main_v34 main_v35 rfl shapeCasts_S2048x16x49x49_S32x64x16x49x49,
    unary main_arg1 main_v36 (broadcastInDim S1x64x1x49x49 ![1, 3, 4] bcast_S64x49x49_S1x64x1x49x49_1_3_4 : (⟨S64x49x49, .f32⟩ : BufTy).Contents (Elt F) → (⟨S1x64x1x49x49, .f32⟩ : BufTy).Contents (Elt F)),
    unary main_v36 main_v37 (broadcastInDim S32x64x16x49x49 ![0, 1, 2, 3, 4] bcast_S1x64x1x49x49_S32x64x16x49x49_0_1_2_3_4 : (⟨S1x64x1x49x49, .f32⟩ : BufTy).Contents (Elt F) → (⟨S32x64x16x49x49, .f32⟩ : BufTy).Contents (Elt F)),
    binary main_v35 main_v37 main_v38 (addf : (⟨S32x64x16x49x49, .f32⟩ : BufTy).Contents (Elt F) → (⟨S32x64x16x49x49, .f32⟩ : BufTy).Contents (Elt F) → (⟨S32x64x16x49x49, .f32⟩ : BufTy).Contents (Elt F)),
    reshape main_v38 main_v39 rfl shapeCasts_S32x64x16x49x49_S2048x16x49x49,
    nullary main_cst_2 (constant S_ .f32 0xFF800000#32),
    binary main_v39 main_cst_2 main_v40 ((fun x v => Host.reduce FloatOps.maximumf x v reducesTo_S2048x16x49x49_S2048x16x49_d3 h_S_) : (⟨S2048x16x49x49, .f32⟩ : BufTy).Contents (Elt F) → (⟨S_, .f32⟩ : BufTy).Contents (Elt F) → (⟨S2048x16x49, .f32⟩ : BufTy).Contents (Elt F)),
    nullary main_cst_3 (constant S_ .f32 0xFF800000#32),
    unary main_cst_3 main_v41 (broadcastInDim S2048x16x49 ![] bcast_S_S2048x16x49 : (⟨S_, .f32⟩ : BufTy).Contents (Elt F) → (⟨S2048x16x49, .f32⟩ : BufTy).Contents (Elt F)),
    binary main_v41 main_v40 main_v42 (maximumf : (⟨S2048x16x49, .f32⟩ : BufTy).Contents (Elt F) → (⟨S2048x16x49, .f32⟩ : BufTy).Contents (Elt F) → (⟨S2048x16x49, .f32⟩ : BufTy).Contents (Elt F)),
    unary main_v42 main_v43 (broadcastInDim S2048x16x49x1 ![0, 1, 2] bcast_S2048x16x49_S2048x16x49x1_0_1_2 : (⟨S2048x16x49, .f32⟩ : BufTy).Contents (Elt F) → (⟨S2048x16x49x1, .f32⟩ : BufTy).Contents (Elt F)),
    unary main_v43 main_v44 (broadcastInDim S2048x16x49x49 ![0, 1, 2, 3] bcast_S2048x16x49x1_S2048x16x49x49_0_1_2_3 : (⟨S2048x16x49x1, .f32⟩ : BufTy).Contents (Elt F) → (⟨S2048x16x49x49, .f32⟩ : BufTy).Contents (Elt F)),
    binary main_v39 main_v44 main_v45 (subf : (⟨S2048x16x49x49, .f32⟩ : BufTy).Contents (Elt F) → (⟨S2048x16x49x49, .f32⟩ : BufTy).Contents (Elt F) → (⟨S2048x16x49x49, .f32⟩ : BufTy).Contents (Elt F)),
    unary main_v45 main_v46 (Host.exp : (⟨S2048x16x49x49, .f32⟩ : BufTy).Contents (Elt F) → (⟨S2048x16x49x49, .f32⟩ : BufTy).Contents (Elt F)),
    nullary main_cst_4 (constant S_ .f32 0x00000000#32),
    binary main_v46 main_cst_4 main_v47 ((fun x v => Host.reduceAdd x v reducesTo_S2048x16x49x49_S2048x16x49_d3 h_S_) : (⟨S2048x16x49x49, .f32⟩ : BufTy).Contents (Elt F) → (⟨S_, .f32⟩ : BufTy).Contents (Elt F) → (⟨S2048x16x49, .f32⟩ : BufTy).Contents (Elt F)),
    unary main_v47 main_v48 (broadcastInDim S2048x16x49x1 ![0, 1, 2] bcast_S2048x16x49_S2048x16x49x1_0_1_2 : (⟨S2048x16x49, .f32⟩ : BufTy).Contents (Elt F) → (⟨S2048x16x49x1, .f32⟩ : BufTy).Contents (Elt F)),
    unary main_v48 main_v49 (broadcastInDim S2048x16x49x49 ![0, 1, 2, 3] bcast_S2048x16x49x1_S2048x16x49x49_0_1_2_3 : (⟨S2048x16x49x1, .f32⟩ : BufTy).Contents (Elt F) → (⟨S2048x16x49x49, .f32⟩ : BufTy).Contents (Elt F)),
    binary main_v46 main_v49 main_v50 (Host.divf : (⟨S2048x16x49x49, .f32⟩ : BufTy).Contents (Elt F) → (⟨S2048x16x49x49, .f32⟩ : BufTy).Contents (Elt F) → (⟨S2048x16x49x49, .f32⟩ : BufTy).Contents (Elt F)),
    binary main_v50 main_v20 main_v51 ((fun l r => Host.dotGeneral dot_S2048x16x49x49_S2048x16x49x32_S2048x16x49x32_3_2_2_3_01_01 none l r) : (⟨S2048x16x49x49, .f32⟩ : BufTy).Contents (Elt F) → (⟨S2048x16x49x32, .f32⟩ : BufTy).Contents (Elt F) → (⟨S2048x16x49x32, .f32⟩ : BufTy).Contents (Elt F)),
    unary main_v51 main_v52 ((transpose S2048x49x16x32 [0, 2, 1, 3] · transposes_S2048x16x49x32_S2048x49x16x32_0_2_1_3) : (⟨S2048x16x49x32, .f32⟩ : BufTy).Contents (Elt F) → (⟨S2048x49x16x32, .f32⟩ : BufTy).Contents (Elt F)),
    reshape main_v52 main_v53 rfl shapeCasts_S2048x49x16x32_S2048x49x512 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., unary_bufs_sub .., reshape_bufs_sub .., unary_bufs_sub .., reshape_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., reshape_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub ..⟩

/-! ## The composed terms -/

/-- The query slab cut into windows and heads: (window number, head, position, channel). -/
def res_main_v10 (X : (⟨S3x32x56x56x512, .f32⟩ : BufTy).Contents (Elt F)) :
    (⟨S2048x16x49x32, .f32⟩ : BufTy).Contents (Elt F) :=
  transpose S2048x16x49x32 [0, 2, 1, 3] (shapeCast _ (shapeCast _ (transpose S32x8x8x7x7x512 [0, 1, 3, 2, 4, 5] (shapeCast _ (shapeCast _ (extractStridedSlice S1x32x56x56x512 ![0, 0, 0, 0, 0] (X) slices_S3x32x56x56x512_S1x32x56x56x512_0_0_0_0_0) shapeCasts_S1x32x56x56x512_S32x56x56x512) shapeCasts_S32x56x56x512_S32x8x7x8x7x512) transposes_S32x8x7x8x7x512_S32x8x8x7x7x512_0_1_3_2_4_5) shapeCasts_S32x8x8x7x7x512_S2048x49x512) shapeCasts_S2048x49x512_S2048x49x16x32) transposes_S2048x49x16x32_S2048x16x49x32_0_2_1_3

/-- The key slab, laid out the same way. -/
def res_main_v15 (X : (⟨S3x32x56x56x512, .f32⟩ : BufTy).Contents (Elt F)) :
    (⟨S2048x16x49x32, .f32⟩ : BufTy).Contents (Elt F) :=
  transpose S2048x16x49x32 [0, 2, 1, 3] (shapeCast _ (shapeCast _ (transpose S32x8x8x7x7x512 [0, 1, 3, 2, 4, 5] (shapeCast _ (shapeCast _ (extractStridedSlice S1x32x56x56x512 ![1, 0, 0, 0, 0] (X) slices_S3x32x56x56x512_S1x32x56x56x512_1_0_0_0_0) shapeCasts_S1x32x56x56x512_S32x56x56x512) shapeCasts_S32x56x56x512_S32x8x7x8x7x512) transposes_S32x8x7x8x7x512_S32x8x8x7x7x512_0_1_3_2_4_5) shapeCasts_S32x8x8x7x7x512_S2048x49x512) shapeCasts_S2048x49x512_S2048x49x16x32) transposes_S2048x49x16x32_S2048x16x49x32_0_2_1_3

/-- The value slab, laid out the same way. -/
def res_main_v20 (X : (⟨S3x32x56x56x512, .f32⟩ : BufTy).Contents (Elt F)) :
    (⟨S2048x16x49x32, .f32⟩ : BufTy).Contents (Elt F) :=
  transpose S2048x16x49x32 [0, 2, 1, 3] (shapeCast _ (shapeCast _ (transpose S32x8x8x7x7x512 [0, 1, 3, 2, 4, 5] (shapeCast _ (shapeCast _ (extractStridedSlice S1x32x56x56x512 ![2, 0, 0, 0, 0] (X) slices_S3x32x56x56x512_S1x32x56x56x512_2_0_0_0_0) shapeCasts_S1x32x56x56x512_S32x56x56x512) shapeCasts_S32x56x56x512_S32x8x7x8x7x512) transposes_S32x8x7x8x7x512_S32x8x8x7x7x512_0_1_3_2_4_5) shapeCasts_S32x8x8x7x7x512_S2048x49x512) shapeCasts_S2048x49x512_S2048x49x16x32) transposes_S2048x49x16x32_S2048x16x49x32_0_2_1_3

/-- The relative-position bias (head, n, m): row `index(n, m)` of the table, the index read from the program's integer table (a negative entry wrapped by 169), transposed head-first. -/
def res_main_v31 (T : (⟨S169x16, .f32⟩ : BufTy).Contents (Elt F)) :
    (⟨S16x49x49, .f32⟩ : BufTy).Contents (Elt F) :=
  transpose S16x49x49 [2, 0, 1] (Host.gather gather_S169x16_S49x49x1_S49x49x16_2_0_n_n_0_2_116 (T) (broadcastInDim S49x49x1 ![0, 1] bcast_S49x49_S49x49x1_0_1 (select (cmpi .slt ((fun i => lit0 (S49x49.rowMajor i) : (⟨S49x49, .i32⟩ : BufTy).Contents (Elt F))) (broadcastInDim S49x49 ![] bcast_S_S49x49 (constantI S_ 32 0#32))) (addi ((fun i => lit0 (S49x49.rowMajor i) : (⟨S49x49, .i32⟩ : BufTy).Contents (Elt F))) (broadcastInDim S49x49 ![] bcast_S_S49x49 (constantI S_ 32 169#32))) ((fun i => lit0 (S49x49.rowMajor i) : (⟨S49x49, .i32⟩ : BufTy).Contents (Elt F)))))) transposes_S49x49x16_S16x49x49_2_0_1

/-- The scores: the scaled query-key products plus the bias (over all windows) plus the mask (over images and heads). -/
def res_main_v39 (X : (⟨S3x32x56x56x512, .f32⟩ : BufTy).Contents (Elt F)) (M : (⟨S64x49x49, .f32⟩ : BufTy).Contents (Elt F)) (T : (⟨S169x16, .f32⟩ : BufTy).Contents (Elt F)) :
    (⟨S2048x16x49x49, .f32⟩ : BufTy).Contents (Elt F) :=
  shapeCast _ (addf (shapeCast _ (addf (mulf (Host.dotGeneral dot_S2048x16x49x32_S2048x16x49x32_S2048x16x49x49_3_3_2_2_01_01 none (res_main_v10 X) (res_main_v15 X)) (broadcastInDim S2048x16x49x49 ![] bcast_S_S2048x16x49x49 (constant S_ .f32 0x3E3504F3#32))) (broadcastInDim S2048x16x49x49 ![0, 1, 2, 3] bcast_S1x16x49x49_S2048x16x49x49_0_1_2_3 (broadcastInDim S1x16x49x49 ![1, 2, 3] bcast_S16x49x49_S1x16x49x49_1_2_3 (res_main_v31 T)))) shapeCasts_S2048x16x49x49_S32x64x16x49x49) (broadcastInDim S32x64x16x49x49 ![0, 1, 2, 3, 4] bcast_S1x64x1x49x49_S32x64x16x49x49_0_1_2_3_4 (broadcastInDim S1x64x1x49x49 ![1, 3, 4] bcast_S64x49x49_S1x64x1x49x49_1_3_4 (M)))) shapeCasts_S32x64x16x49x49_S2048x16x49x49

/-- The scores less their row maximum, exponentiated. -/
def res_main_v46 (X : (⟨S3x32x56x56x512, .f32⟩ : BufTy).Contents (Elt F)) (M : (⟨S64x49x49, .f32⟩ : BufTy).Contents (Elt F)) (T : (⟨S169x16, .f32⟩ : BufTy).Contents (Elt F)) :
    (⟨S2048x16x49x49, .f32⟩ : BufTy).Contents (Elt F) :=
  Host.exp (subf (res_main_v39 X M T) (broadcastInDim S2048x16x49x49 ![0, 1, 2, 3] bcast_S2048x16x49x1_S2048x16x49x49_0_1_2_3 (broadcastInDim S2048x16x49x1 ![0, 1, 2] bcast_S2048x16x49_S2048x16x49x1_0_1_2 (maximumf (broadcastInDim S2048x16x49 ![] bcast_S_S2048x16x49 (constant S_ .f32 0xFF800000#32)) (Host.reduce FloatOps.maximumf (res_main_v39 X M T) (constant S_ .f32 0xFF800000#32) reducesTo_S2048x16x49x49_S2048x16x49_d3 h_S_)))))

/-- The output: the exponentials over their row sums, times the values, laid back as (window number, position, head * 32 + channel). -/
def res_main_v53 (X : (⟨S3x32x56x56x512, .f32⟩ : BufTy).Contents (Elt F)) (M : (⟨S64x49x49, .f32⟩ : BufTy).Contents (Elt F)) (T : (⟨S169x16, .f32⟩ : BufTy).Contents (Elt F)) :
    (⟨S2048x49x512, .f32⟩ : BufTy).Contents (Elt F) :=
  shapeCast _ (transpose S2048x49x16x32 [0, 2, 1, 3] (Host.dotGeneral dot_S2048x16x49x49_S2048x16x49x32_S2048x16x49x32_3_2_2_3_01_01 none (Host.divf (res_main_v46 X M T) (broadcastInDim S2048x16x49x49 ![0, 1, 2, 3] bcast_S2048x16x49x1_S2048x16x49x49_0_1_2_3 (broadcastInDim S2048x16x49x1 ![0, 1, 2] bcast_S2048x16x49_S2048x16x49x1_0_1_2 (Host.reduceAdd (res_main_v46 X M T) (constant S_ .f32 0x00000000#32) reducesTo_S2048x16x49x49_S2048x16x49_d3 h_S_)))) (res_main_v20 X)) transposes_S2048x16x49x32_S2048x49x16x32_0_2_1_3) shapeCasts_S2048x49x16x32_S2048x49x512

/-- The bias term at the extended reals. -/
def biasR (T : S169x16.Idx → EReal) : S16x49x49.Idx → EReal := res_main_v31 (F := Ideal) T

/-- The result term at the extended reals. -/
def refTerm (X : S3x32x56x56x512.Idx → EReal) (M : S64x49x49.Idx → EReal) (T : S169x16.Idx → EReal) : S2048x49x512.Idx → EReal :=
  res_main_v53 (F := Ideal) X M T

end Cert.ReferenceIdeal.RefValue

end
-- ==== Proof.RefRun.lean ====
/-
  The reference program's run read back: every weakly fair execution of @main terminates with the result buffer at
  the operations' composed term of the three arguments' launch contents, the arguments unchanged.
-/
import proofs.«150819_j67637144977770_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 24800000 in
/-- On every device, from any memory with zero counters: every weakly fair execution of @main terminates with the
    result at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.RefRead2.lean ====
/-
  The reference's two batched products read at an index: over (window number, head), positions against positions over
  the 32 channels of a head, and weights against values over the 49 positions of a window.
-/
import proofs.«150819_j67637144977770_2_alg».proof.Proof.RefTerm
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- Queries against keys: at (window number, head, n, m) the sum over the head's channels of the products. -/
theorem dot_qk_apply (w : DotDims.WF S2048x16x49x32 S2048x16x49x32 S2048x16x49x49 [3] [3] [2] [2] [0, 1] [0, 1])
    (Q : FVec Ideal S2048x16x49x32 .f32) (K : FVec Ideal S2048x16x49x32 .f32) (bw : Fin 2048) (h : Fin 16) (n m : Fin 49) :
    Host.dotGeneral (⟨[3], [3], [2], [2], [0, 1], [0, 1], w⟩ : DotDims S2048x16x49x32 S2048x16x49x32 S2048x16x49x49) none Q K (ix4 bw h n m)
      = ∑ k : Fin 32, Q (ix4 bw h n k) * K (ix4 bw h m k) := by
  show FloatOps.dotGeneral _ none _ Q K (ix4 bw h n m) = _
  rw [Ideal.dotGeneral_apply,
    ← Equiv.sum_comp (contrEquiv1 (⟨[3], [3], [2], [2], [0, 1], [0, 1], w⟩ : DotDims S2048x16x49x32 S2048x16x49x32 S2048x16x49x49) 32 rfl rfl).symm]
  refine Finset.sum_congr rfl fun k _ => ?_
  have c3 := contrEquiv1_symm_val
    (⟨[3], [3], [2], [2], [0, 1], [0, 1], w⟩ : DotDims S2048x16x49x32 S2048x16x49x32 S2048x16x49x49) 32 rfl rfl k
  have l3 : (⟨[3], [3], [2], [2], [0, 1], [0, 1], w⟩ : DotDims S2048x16x49x32 S2048x16x49x32 S2048x16x49x49).lhsIdx (ix4 bw h n m)
      ((contrEquiv1 _ 32 rfl rfl).symm k) = ix4 bw h n k := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [2], [2], [0, 1], [0, 1], w⟩ : DotDims S2048x16x49x32 S2048x16x49x32 S2048x16x49x49).rhsIdx (ix4 bw h n m)
      ((contrEquiv1 _ 32 rfl rfl).symm k) = ix4 bw h m k := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

/-- Weights against values: at (window number, head, n, d) the sum over the window's positions of the products. -/
theorem dot_pv_apply (w : DotDims.WF S2048x16x49x49 S2048x16x49x32 S2048x16x49x32 [3] [2] [2] [3] [0, 1] [0, 1])
    (P : FVec Ideal S2048x16x49x49 .f32) (V : FVec Ideal S2048x16x49x32 .f32) (bw : Fin 2048) (h : Fin 16) (n : Fin 49) (d : Fin 32) :
    Host.dotGeneral (⟨[3], [2], [2], [3], [0, 1], [0, 1], w⟩ : DotDims S2048x16x49x49 S2048x16x49x32 S2048x16x49x32) none P V (ix4 bw h n d)
      = ∑ k : Fin 49, P (ix4 bw h n k) * V (ix4 bw h k d) := by
  show FloatOps.dotGeneral _ none _ P V (ix4 bw h n d) = _
  rw [Ideal.dotGeneral_apply,
    ← Equiv.sum_comp (contrEquiv1 (⟨[3], [2], [2], [3], [0, 1], [0, 1], w⟩ : DotDims S2048x16x49x49 S2048x16x49x32 S2048x16x49x32) 49 rfl rfl).symm]
  refine Finset.sum_congr rfl fun k _ => ?_
  have c3 := contrEquiv1_symm_val
    (⟨[3], [2], [2], [3], [0, 1], [0, 1], w⟩ : DotDims S2048x16x49x49 S2048x16x49x32 S2048x16x49x32) 49 rfl rfl k
  have l3 : (⟨[3], [2], [2], [3], [0, 1], [0, 1], w⟩ : DotDims S2048x16x49x49 S2048x16x49x32 S2048x16x49x32).lhsIdx (ix4 bw h n d)
      ((contrEquiv1 _ 49 rfl rfl).symm k) = ix4 bw h n k := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [2], [2], [3], [0, 1], [0, 1], w⟩ : DotDims S2048x16x49x49 S2048x16x49x32 S2048x16x49x32).rhsIdx (ix4 bw h n d)
      ((contrEquiv1 _ 49 rfl rfl).symm k) = ix4 bw h k d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
    | ⟨3, _⟩ => simp [DotDims.rhsIdx]; rfl
  rw [l3, r3]

end Cert.ReferenceIdeal.RefValue

end
-- ==== Proof.RefRead1.lean ====
/-
  The reference's operations read at an index, one lemma per stage, over arbitrary operands: the slab layout, the two
  batched products, the score assembly (scale, bias over windows, mask over images and heads), the row softmax, and
  the final layout of the output.
-/
import proofs.«150819_j67637144977770_2_alg».proof.Proof.RefTerm
import proofs.«150819_j67637144977770_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.WinAttn

/-- The image of window number `bw` (64 windows to an image). -/
abbrev imgOf (bw : Fin 2048) : Fin 32 := ⟨bw.val / 64, by have := bw.isLt; omega⟩
/-- Its window within the image. -/
abbrev winOf (bw : Fin 2048) : Fin 64 := ⟨bw.val % 64, by omega⟩
/-- The head of channel `c` (32 channels to a head). -/
abbrev headOf (c : Fin 512) : Fin 16 := ⟨c.val / 32, by have := c.isLt; omega⟩
/-- Its channel within the head. -/
abbrev chanOf (c : Fin 512) : Fin 32 := ⟨c.val % 32, by omega⟩

/-! ## The slab layout -/

/-- The windows flattened over all images, the channels split into heads, heads moved before positions: at
    (window number, head, position, channel) this is the (image, window, position, head, channel) layout. -/
theorem slab_apply (W : S32x8x8x7x7x512.Idx → EReal)
    (h1 : S32x8x8x7x7x512.ShapeCasts S2048x49x512) (h2 : S2048x49x512.ShapeCasts S2048x49x16x32)
    (ht : S2048x49x16x32.Transposes [0, 2, 1, 3] S2048x16x49x32)
    (h3 : S6b.ShapeCasts S4w) (h4 : S4w.ShapeCasts SY)
    (bw : Fin 2048) (h : Fin 16) (n : Fin 49) (e : Fin 32) :
    transpose S2048x16x49x32 [0, 2, 1, 3] (shapeCast S2048x49x16x32 (shapeCast S2048x49x512 W h1) h2) ht (ix4 bw h n e)
      = shapeCast SY (shapeCast S4w W h3) h4 (ix5 (imgOf bw) (winOf bw) n h e) := by
  refine (transpose_apply _ _ ht (ix4 bw h n e) (ix4 bw n h e) ?_).trans ?_
  · intro b
    match b with
    | ⟨0, _⟩ => rfl
    | ⟨1, _⟩ => rfl
    | ⟨2, _⟩ => rfl
    | ⟨3, _⟩ => rfl
  · exact flat_prep W h1 h2 h3 h4 bw n h e

theorem v10_apply (X : S3x32x56x56x512.Idx → EReal) (bw : Fin 2048) (h : Fin 16) (n : Fin 49) (e : Fin 32) :
    res_main_v10 (F := Ideal) X (ix4 bw h n e)
      = prep ![0, 0, 0, 0, 0] (by decide) X (ix5 (imgOf bw) (winOf bw) n h e) := by
  unfold res_main_v10 prep win6
  exact slab_apply _ _ _ _ _ _ bw h n e

theorem v15_apply (X : S3x32x56x56x512.Idx → EReal) (bw : Fin 2048) (h : Fin 16) (n : Fin 49) (e : Fin 32) :
    res_main_v15 (F := Ideal) X (ix4 bw h n e)
      = prep ![1, 0, 0, 0, 0] (by decide) X (ix5 (imgOf bw) (winOf bw) n h e) := by
  unfold res_main_v15 prep win6
  exact slab_apply _ _ _ _ _ _ bw h n e

theorem v20_apply (X : S3x32x56x56x512.Idx → EReal) (bw : Fin 2048) (h : Fin 16) (n : Fin 49) (e : Fin 32) :
    res_main_v20 (F := Ideal) X (ix4 bw h n e)
      = prep ![2, 0, 0, 0, 0] (by decide) X (ix5 (imgOf bw) (winOf bw) n h e) := by
  unfold res_main_v20 prep win6
  exact slab_apply _ _ _ _ _ _ bw h n e

end Cert.ReferenceIdeal.RefValue

end
-- ==== Proof.RefRead3.lean ====
/-
  The reference's elementwise and layout stages read at an index, over arbitrary operands: the score assembly (scale,
  bias broadcast over windows, mask broadcast over images and heads, between two reshapes), a per-row value broadcast
  along the row, the row maximum, the row sum, and the final layout of the output.
-/
import proofs.«150819_j67637144977770_2_alg».proof.Proof.RefRead1
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.WinAttn

/-! ## The scores -/

/-- The products scaled, plus the bias broadcast over all windows, reshaped to (image, window, …), plus the mask
    broadcast over images and heads, reshaped back: at (window number, head, n, m) the product times the scale, plus
    the bias at (head, n, m), plus the mask at (window in image, n, m). -/
theorem score_stage (D : FVec Ideal S2048x16x49x49 .f32) (B : FVec Ideal S16x49x49 .f32) (M : FVec Ideal S64x49x49 .f32)
    (hc1 : S2048x16x49x49.ShapeCasts S32x64x16x49x49) (hc2 : S32x64x16x49x49.ShapeCasts S2048x16x49x49)
    (hb0 : S_.BroadcastsInDim S2048x16x49x49 (![] : Fin 0 → Fin S2048x16x49x49.rank))
    (hb1 : S16x49x49.BroadcastsInDim S1x16x49x49 (![1, 2, 3] : Fin 3 → Fin S1x16x49x49.rank))
    (hb2 : S1x16x49x49.BroadcastsInDim S2048x16x49x49 (![0, 1, 2, 3] : Fin 4 → Fin S2048x16x49x49.rank))
    (hm1 : S64x49x49.BroadcastsInDim S1x64x1x49x49 (![1, 3, 4] : Fin 3 → Fin S1x64x1x49x49.rank))
    (hm2 : S1x64x1x49x49.BroadcastsInDim S32x64x16x49x49 (![0, 1, 2, 3, 4] : Fin 5 → Fin S32x64x16x49x49.rank))
    (bw : Fin 2048) (h : Fin 16) (n m : Fin 49) :
    shapeCast S2048x16x49x49 (addf (shapeCast S32x64x16x49x49 (addf (mulf D (broadcastInDim S2048x16x49x49 ![] hb0 (constant S_ .f32 0x3E3504F3#32)))
        (broadcastInDim S2048x16x49x49 ![0, 1, 2, 3] hb2 (broadcastInDim S1x16x49x49 ![1, 2, 3] hb1 B))) hc1)
        (broadcastInDim S32x64x16x49x49 ![0, 1, 2, 3, 4] hm2 (broadcastInDim S1x64x1x49x49 ![1, 3, 4] hm1 M))) hc2 (ix4 bw h n m)
      = D (ix4 bw h n m) * scale + B (ix3 h n m) + M (ix3 (winOf bw) n m) := by
  have hbw : bw.val / 64 * 64 + bw.val % 64 = bw.val := by omega
  refine (shapeCast_apply _ hc2 (ix4 bw h n m) (ix5 (imgOf bw) (winOf bw) h n m) ?_).trans ?_
  · rw [Shape.rowMajor_val_five, Shape.rowMajor_val_four]
    show ((((bw.val / 64) * 64 + bw.val % 64) * 16 + h.val) * 49 + n.val) * 49 + m.val
      = ((bw.val * 16 + h.val) * 49 + n.val) * 49 + m.val
    rw [hbw]
  refine (addf_apply _ _ _).trans (congrArg₂ (· + ·) ?_ ?_)
  · refine (shapeCast_apply _ hc1 (ix5 (imgOf bw) (winOf bw) h n m) (ix4 bw h n m) ?_).trans ?_
    · rw [Shape.rowMajor_val_five, Shape.rowMajor_val_four]
      show ((bw.val * 16 + h.val) * 49 + n.val) * 49 + m.val
        = ((((bw.val / 64) * 64 + bw.val % 64) * 16 + h.val) * 49 + n.val) * 49 + m.val
      rw [hbw]
    refine (addf_apply _ _ _).trans (congrArg₂ (· + ·) rfl ?_)
    exact (broadcastInDim_apply _ hb2 _ (ix4 bw h n m) (ix4 (0 : Fin 1) h n m) (fun a => match a with | ⟨0, _⟩ => rfl | ⟨1, _⟩ => rfl | ⟨2, _⟩ => rfl | ⟨3, _⟩ => rfl)).trans
      (broadcastInDim_apply _ hb1 B (ix4 (0 : Fin 1) h n m) (ix3 h n m) (fun a => match a with | ⟨0, _⟩ => rfl | ⟨1, _⟩ => rfl | ⟨2, _⟩ => rfl))
  · exact (broadcastInDim_apply _ hm2 _ (ix5 (imgOf bw) (winOf bw) h n m) (ix5 (0 : Fin 1) (winOf bw) (0 : Fin 1) n m)
        (fun a => match a with | ⟨0, _⟩ => rfl | ⟨1, _⟩ => rfl | ⟨2, _⟩ => rfl | ⟨3, _⟩ => rfl | ⟨4, _⟩ => rfl)).trans
      (broadcastInDim_apply _ hm1 M (ix5 (0 : Fin 1) (winOf bw) (0 : Fin 1) n m) (ix3 (winOf bw) n m) (fun a => match a with | ⟨0, _⟩ => rfl | ⟨1, _⟩ => rfl | ⟨2, _⟩ => rfl))

/-! ## The softmax of a row -/

/-- A value per row, given a unit last axis and broadcast along the row: at (window number, head, n, m) the row's value. -/
theorem rowbcast_apply (R : FVec Ideal S2048x16x49 .f32)
    (hb1 : S2048x16x49.BroadcastsInDim S2048x16x49x1 (![0, 1, 2] : Fin 3 → Fin S2048x16x49x1.rank))
    (hb2 : S2048x16x49x1.BroadcastsInDim S2048x16x49x49 (![0, 1, 2, 3] : Fin 4 → Fin S2048x16x49x49.rank))
    (bw : Fin 2048) (h : Fin 16) (n m : Fin 49) :
    broadcastInDim S2048x16x49x49 ![0, 1, 2, 3] hb2 (broadcastInDim S2048x16x49x1 ![0, 1, 2] hb1 R) (ix4 bw h n m)
      = R (ix3 bw h n) :=
  (broadcastInDim_apply _ hb2 _ (ix4 bw h n m) (ix4 bw h n (0 : Fin 1)) (fun a => match a with | ⟨0, _⟩ => rfl | ⟨1, _⟩ => rfl | ⟨2, _⟩ => rfl | ⟨3, _⟩ => rfl)).trans
    (broadcastInDim_apply _ hb1 R (ix4 bw h n (0 : Fin 1)) (ix3 bw h n) (fun a => match a with | ⟨0, _⟩ => rfl | ⟨1, _⟩ => rfl | ⟨2, _⟩ => rfl))

/-- The index a reduction over the last axis inserts the coordinate `m` at. -/
theorem lift_last (hr : S2048x16x49x49.Reduces [3] S2048x16x49) (bw : Fin 2048) (h : Fin 16) (n m : Fin 49) :
    hr.lift (ix3 bw h n) m = ix4 bw h n m :=
  funext fun a => Fin.ext (match a with | ⟨0, _⟩ => rfl | ⟨1, _⟩ => rfl | ⟨2, _⟩ => rfl | ⟨3, _⟩ => rfl)

/-- The maximum over the last axis from minus infinity, then once more against the minus-infinity splat: the row's maximum. -/
theorem rowmax_stage (S : FVec Ideal S2048x16x49x49 .f32) (hr' : S2048x16x49x49.ReducesTo [3] S2048x16x49) (hu : 0 < S_.numel)
    (hb : S_.BroadcastsInDim S2048x16x49 (![] : Fin 0 → Fin S2048x16x49.rank))
    (bw : Fin 2048) (h : Fin 16) (n : Fin 49) :
    maximumf (broadcastInDim S2048x16x49 ![] hb (constant S_ .f32 0xFF800000#32))
        (Host.reduce FloatOps.maximumf S (constant S_ .f32 0xFF800000#32) hr' hu) (ix3 bw h n)
      = rowMax fun m => S (ix4 bw h n m) := by
  have hr : S2048x16x49x49.Reduces [3] S2048x16x49 := by decide
  refine (maximumf_apply _ _ _).trans ?_
  rw [Host.reduce_eq_fold_single FloatOps.maximumf S _ hr' hr hu (ix3 bw h n)]
  have hf : (S ∘ hr.lift (ix3 bw h n)) = fun m : Fin 49 => S (ix4 bw h n m) :=
    funext fun m => congrArg S (lift_last hr bw h n m)
  show max negInf ((Finset.univ : Finset (Fin 49)).fold max negInf (S ∘ hr.lift (ix3 bw h n))) = _
  rw [hf]
  exact max_negInf_rowMax _

/-- The sum over the last axis from zero: the row's sum. -/
theorem rowsum_stage (E : FVec Ideal S2048x16x49x49 .f32) (hr' : S2048x16x49x49.ReducesTo [3] S2048x16x49) (hu : 0 < S_.numel)
    (bw : Fin 2048) (h : Fin 16) (n : Fin 49) :
    Host.reduceAdd E (constant S_ .f32 0x00000000#32) hr' hu (ix3 bw h n) = ∑ m : Fin 49, E (ix4 bw h n m) := by
  have hr : S2048x16x49x49.Reduces [3] S2048x16x49 := by decide
  show Ideal.hostReduceAdd hr' E (Ideal.ofBits .f32 0x00000000#32) (ix3 bw h n) = _
  rw [Ideal.hostReduceAdd_single hr' hr, Ideal.ofBits_zero_f32, zero_add]
  exact Finset.sum_congr rfl fun m _ => congrArg E (lift_last hr bw h n m)

/-! ## The output's layout -/

/-- Heads moved back after positions and merged with the channels: at (window number, n, c) the operand at
    (window number, head of c, n, channel of c in its head). -/
theorem out_layout (D : FVec Ideal S2048x16x49x32 .f32) (ht : S2048x16x49x32.Transposes [0, 2, 1, 3] S2048x49x16x32)
    (hc : S2048x49x16x32.ShapeCasts S2048x49x512) (bw : Fin 2048) (n : Fin 49) (c : Fin 512) :
    shapeCast S2048x49x512 (transpose S2048x49x16x32 [0, 2, 1, 3] D ht) hc (ix3 bw n c)
      = D (ix4 bw (headOf c) n (chanOf c)) := by
  refine (shapeCast_apply _ hc (ix3 bw n c) (ix4 bw n (headOf c) (chanOf c)) ?_).trans
    (transpose_apply _ D ht (ix4 bw n (headOf c) (chanOf c)) (ix4 bw (headOf c) n (chanOf c))
      (fun b => match b with | ⟨0, _⟩ => rfl | ⟨1, _⟩ => rfl | ⟨2, _⟩ => rfl | ⟨3, _⟩ => rfl))
  rw [Shape.rowMajor_val_four, Shape.rowMajor_val_three]
  show ((bw.val * 49 + n.val) * 16 + c.val / 32) * 32 + c.val % 32 = (bw.val * 49 + n.val) * 512 + c.val
  omega

/-! ## The exponentials and the weights -/

theorem exp_sub_apply {s : Shape} (S Y : FVec Ideal s .f32) (j : s.Idx) : Host.exp (subf S Y) j = Ideal.exp (S j - Y j) := rfl

theorem hostDivf_apply {s : Shape} (E Y : FVec Ideal s .f32) (j : s.Idx) : Host.divf E Y j = Ideal.div (E j) (Y j) := rfl

/-- A score less its row's maximum (the maximum broadcast along the row), exponentiated. -/
theorem exp_stage (S : FVec Ideal S2048x16x49x49 .f32) (hr' : S2048x16x49x49.ReducesTo [3] S2048x16x49) (hu : 0 < S_.numel)
    (hb : S_.BroadcastsInDim S2048x16x49 (![] : Fin 0 → Fin S2048x16x49.rank))
    (hb1 : S2048x16x49.BroadcastsInDim S2048x16x49x1 (![0, 1, 2] : Fin 3 → Fin S2048x16x49x1.rank))
    (hb2 : S2048x16x49x1.BroadcastsInDim S2048x16x49x49 (![0, 1, 2, 3] : Fin 4 → Fin S2048x16x49x49.rank))
    (bw : Fin 2048) (h : Fin 16) (n m : Fin 49) :
    Host.exp (subf S (broadcastInDim S2048x16x49x49 ![0, 1, 2, 3] hb2 (broadcastInDim S2048x16x49x1 ![0, 1, 2] hb1
        (maximumf (broadcastInDim S2048x16x49 ![] hb (constant S_ .f32 0xFF800000#32))
          (Host.reduce FloatOps.maximumf S (constant S_ .f32 0xFF800000#32) hr' hu))))) (ix4 bw h n m)
      = expRow (fun m' => S (ix4 bw h n m')) m := by
  refine (exp_sub_apply _ _ _).trans ?_
  rw [rowbcast_apply, rowmax_stage]
  rfl

/-- An exponential over its row's sum (the sum broadcast along the row). -/
theorem prob_stage (E : FVec Ideal S2048x16x49x49 .f32) (hr' : S2048x16x49x49.ReducesTo [3] S2048x16x49) (hu : 0 < S_.numel)
    (hb1 : S2048x16x49.BroadcastsInDim S2048x16x49x1 (![0, 1, 2] : Fin 3 → Fin S2048x16x49x1.rank))
    (hb2 : S2048x16x49x1.BroadcastsInDim S2048x16x49x49 (![0, 1, 2, 3] : Fin 4 → Fin S2048x16x49x49.rank))
    (bw : Fin 2048) (h : Fin 16) (n m : Fin 49) :
    Host.divf E (broadcastInDim S2048x16x49x49 ![0, 1, 2, 3] hb2 (broadcastInDim S2048x16x49x1 ![0, 1, 2] hb1
        (Host.reduceAdd E (constant S_ .f32 0x00000000#32) hr' hu))) (ix4 bw h n m)
      = Ideal.div (E (ix4 bw h n m)) (∑ m' : Fin 49, E (ix4 bw h n m')) := by
  refine (hostDivf_apply _ _ _).trans ?_
  rw [rowbcast_apply, rowsum_stage]

end Cert.ReferenceIdeal.RefValue

end
-- ==== Proof.RefRead.lean ====
/-
  The reference's composed term equals the windowed attention of the specification: the stages chained, from the
  output's layout inwards — the weights-values product, the softmax of each row, the scores, the prepared slabs.
-/
import proofs.«150819_j67637144977770_2_alg».proof.Proof.RefRead2
import proofs.«150819_j67637144977770_2_alg».proof.Proof.RefRead3

noncomputable section

open scoped BigOperators

namespace Cert.ReferenceIdeal.RefValue

open Cert.ReferenceIdeal Cert.ReferenceIdeal.Gen Idealize.ShloMosaic Idealize.ShloMosaic.ValueIdx Cert.WinAttn

/-- The scores at (window number, head, n, m) are the specification's. -/
theorem v39_apply (X : S3x32x56x56x512.Idx → EReal) (M : S64x49x49.Idx → EReal) (T : S169x16.Idx → EReal) (bw : Fin 2048) (h : Fin 16) (n m : Fin 49) :
    res_main_v39 (F := Ideal) X M T (ix4 bw h n m)
      = score (prep ![0, 0, 0, 0, 0] (by decide) X) (prep ![1, 0, 0, 0, 0] (by decide) X) (biasR T) M (imgOf bw) (winOf bw) h n m := by
  unfold res_main_v39
  refine (score_stage _ _ M _ _ _ _ _ _ _ bw h n m).trans ?_
  unfold score
  refine congrArg₂ (· + ·) (congrArg₂ (· + ·) (congrArg (· * scale) ?_) rfl) rfl
  refine (dot_qk_apply _ _ _ bw h n m).trans (Finset.sum_congr rfl fun e _ => ?_)
  rw [v10_apply, v15_apply]

/-- The exponentials at (window number, head, n, m) are those of the row of scores. -/
theorem v46_apply (X : S3x32x56x56x512.Idx → EReal) (M : S64x49x49.Idx → EReal) (T : S169x16.Idx → EReal) (bw : Fin 2048) (h : Fin 16) (n m : Fin 49) :
    res_main_v46 (F := Ideal) X M T (ix4 bw h n m)
      = expRow (fun m' => res_main_v39 (F := Ideal) X M T (ix4 bw h n m')) m := by
  unfold res_main_v46
  exact exp_stage _ _ _ _ _ _ bw h n m

/-- The reference's result is the windowed attention of its three prepared slabs, its bias term and the mask. -/
theorem result_eq (X : S3x32x56x56x512.Idx → EReal) (M : S64x49x49.Idx → EReal) (T : S169x16.Idx → EReal) :
    refTerm X M T = Cert.WinAttn.out (Cert.WinAttn.prep ![0, 0, 0, 0, 0] (by decide) X) (Cert.WinAttn.prep ![1, 0, 0, 0, 0] (by decide) X)
      (Cert.WinAttn.prep ![2, 0, 0, 0, 0] (by decide) X) (biasR T) M := by
  funext i
  obtain ⟨bw, n, c, rfl⟩ : ∃ (bw : Fin 2048) (n : Fin 49) (c : Fin 512), i = ix3 bw n c := ⟨i 0, i 1, i 2, eq_ix3 i⟩
  show res_main_v53 (F := Ideal) X M T (ix3 bw n c)
    = att (prep ![0, 0, 0, 0, 0] (by decide) X) (prep ![1, 0, 0, 0, 0] (by decide) X) (prep ![2, 0, 0, 0, 0] (by decide) X) (biasR T) M (imgOf bw) (winOf bw) (headOf c) n (chanOf c)
  unfold res_main_v53
  refine (out_layout _ _ _ bw n c).trans ((dot_pv_apply _ _ _ bw (headOf c) n (chanOf c)).trans ?_)
  unfold att
  refine Finset.sum_congr rfl fun m _ => congrArg₂ (· * ·) ?_ (v20_apply X bw (headOf c) m (chanOf c))
  have hE : ∀ m' : Fin 49, res_main_v46 (F := Ideal) X M T (ix4 bw (headOf c) n m')
      = expRow (score (prep ![0, 0, 0, 0, 0] (by decide) X) (prep ![1, 0, 0, 0, 0] (by decide) X) (biasR T) M (imgOf bw) (winOf bw) (headOf c) n) m' := fun m' =>
    (v46_apply X M T bw (headOf c) n m').trans
      (congrArg (fun s => expRow s m') (funext fun m'' => v39_apply X M T bw (headOf c) n m''))
  refine (prob_stage _ _ _ _ _ bw (headOf c) n m).trans ?_
  unfold prob
  rw [hE m]
  exact congrArg (Ideal.div _) (Finset.sum_congr rfl fun m' _ => hE m')

end Cert.ReferenceIdeal.RefValue

end
-- ==== Proof.Bias.lean ====
/-
  The two programs gather the same bias.  Both index the bias table by the same table of relative-position
  numbers (0 … 168); the reference first wraps a negative number by 169, the kernel's program has that test
  already decided as "never".  No entry of the table is negative, so the two index arrays are equal, and the
  gathers after them are one term.
-/
import proofs.«150819_j67637144977770_2_alg».proof.Proof.KerHost
import proofs.«150819_j67637144977770_2_alg».proof.Proof.RefTerm
import Idealize.ShloMosaic.Lib.ValueIdx

noncomputable section

namespace Cert.Bias

open Idealize.ShloMosaic Idealize.ShloMosaic.ValueIdx

/-- Entry by entry the two programs' tables are one table, and no entry is negative as a signed word. -/
theorem table_facts : ∀ k : Fin 2401, Cert.KernelIdeal.lit0 k = Cert.ReferenceIdeal.lit0 k
    ∧ (Cert.ReferenceIdeal.lit0 k).slt 0#32 = false := by
  decide +kernel

/-- The index arrays the two gathers read are equal. -/
theorem index_eq :
    (select (constantI Cert.KernelIdeal.S49x49 1 0#1)
        (addi Cert.KernelIdeal.Host.relIdx (broadcastInDim Cert.KernelIdeal.S49x49 ![] Cert.KernelIdeal.Gen.bcast_S_S49x49 (constantI Cert.KernelIdeal.S_ 32 169#32)))
        Cert.KernelIdeal.Host.relIdx : Cert.KernelIdeal.S49x49.Idx → BitVec 32)
      = select (cmpi .slt (fun i => Cert.ReferenceIdeal.lit0 (Cert.ReferenceIdeal.S49x49.rowMajor i))
            (broadcastInDim Cert.ReferenceIdeal.S49x49 ![] Cert.ReferenceIdeal.Gen.bcast_S_S49x49 (constantI Cert.ReferenceIdeal.S_ 32 0#32)))
          (addi (fun i => Cert.ReferenceIdeal.lit0 (Cert.ReferenceIdeal.S49x49.rowMajor i))
            (broadcastInDim Cert.ReferenceIdeal.S49x49 ![] Cert.ReferenceIdeal.Gen.bcast_S_S49x49 (constantI Cert.ReferenceIdeal.S_ 32 169#32)))
          (fun i => Cert.ReferenceIdeal.lit0 (Cert.ReferenceIdeal.S49x49.rowMajor i)) := by
  funext i
  obtain ⟨e, hneg⟩ := table_facts (Cert.ReferenceIdeal.S49x49.rowMajor i)
  show Scalar.select 0#1 _ (Cert.KernelIdeal.lit0 (Cert.KernelIdeal.S49x49.rowMajor i))
    = Scalar.select (BitVec.ofBool ((Cert.ReferenceIdeal.lit0 (Cert.ReferenceIdeal.S49x49.rowMajor i)).slt 0#32)) _
        (Cert.ReferenceIdeal.lit0 (Cert.ReferenceIdeal.S49x49.rowMajor i))
  rw [hneg]
  show Scalar.select 0#1 _ _ = Scalar.select 0#1 _ _
  rw [select_zero, select_zero]
  exact e

/-- So the bias arrays are equal. -/
theorem bias_eq (T : Cert.KernelIdeal.S169x16.Idx → EReal) :
    Cert.KernelIdeal.Host.biasK T = Cert.ReferenceIdeal.RefValue.biasR T := by
  unfold Cert.KernelIdeal.Host.biasK Cert.ReferenceIdeal.RefValue.biasR Cert.ReferenceIdeal.RefValue.res_main_v31
  rw [index_eq]
  rfl

end Cert.Bias

end
-- ==== Proof.lean ====
/-
  Windowed multi-head attention: a kernel that processes 16 windows of one image per grid step against the plain
  array program.  Both programs cut the three slabs of the input into 7 x 7 windows and 16 heads in the same way,
  score each pair of positions of a window by the scaled inner product of query and key plus a bias gathered
  from a table by relative position plus a per-window mask, turn each row of scores into weights by the softmax,
  and sum the value vectors with those weights.  Over the extended reals the two results are the same function
  of the inputs, entry by entry: the same products in the same order, sums over the same index sets, the same
  maximum, exponential and quotient; the kernel only groups the windows differently and rounds nothing.  The
  one place where the two texts differ is the bias index, which the reference wraps when negative; no entry of
  the index table is negative.  No finiteness of the inputs is used.
-/
import proofs.«150819_j67637144977770_2_alg».proof.Defs
import proofs.«150819_j67637144977770_2_alg».proof.Proof.Gen.Kernel
import proofs.«150819_j67637144977770_2_alg».proof.Proof.Gen.Kernel.Frame
import proofs.«150819_j67637144977770_2_alg».proof.Proof.Gen.KernelIdeal
import proofs.«150819_j67637144977770_2_alg».proof.Proof.Gen.KernelIdeal.Frame
import proofs.«150819_j67637144977770_2_alg».proof.Proof.Gen.ReferenceIdeal
import proofs.«150819_j67637144977770_2_alg».proof.Proof.Gen.Pre_finite_inputs
import proofs.«150819_j67637144977770_2_alg».proof.Proof.KerTail
import proofs.«150819_j67637144977770_2_alg».proof.Proof.RefRun
import proofs.«150819_j67637144977770_2_alg».proof.Proof.RefRead
import proofs.«150819_j67637144977770_2_alg».proof.Proof.Bias
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Nothing was rewritten on the way to the idealized kernel. -/
theorem preserves : Cert.preserves_Kernel_KernelIdeal := trivial

/-- Both programs end with the layer's output: the kernel's by its steps' blocks, the reference's by reading its
    operations at an index, with the two gathered biases equal. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2, Cert.ReferenceIdeal.RefValue.result_eq, ← Cert.Bias.bias_eq]
  exact (Cert.KernelIdeal.Tail.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
